-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x16 .f32) (main_arg11 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x1600000 32) (main_arg2 : FVec F S32x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x32 : Shape := ⟨2, ![5000, 32]⟩
abbrev S5000x128 : Shape := ⟨2, ![5000, 128]⟩
abbrev S1x128 : Shape := ⟨2, ![1, 128]⟩
abbrev S1600000x128 : Shape := ⟨2, ![1600000, 128]⟩
abbrev S100000x16 : Shape := ⟨2, ![100000, 16]⟩
abbrev S5000x16 : Shape := ⟨2, ![5000, 16]⟩
abbrev S1x16 : Shape := ⟨2, ![1, 16]⟩

abbrev nBuf : Space → Nat
  | .hbm => 66
  | .vmem => 30
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S128x16, .f32⟩
  | .local _ .vmem, ⟨27, _⟩ => ⟨S16, .f32⟩
  | .local _ .vmem, ⟨28, _⟩ => ⟨S5000x16, .f32⟩
  | .local _ .vmem, ⟨29, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16.size a ≤ S16.size a
  hwx2_6 : ∀ i : grid2.Coords, EltTy.bits .f32 = 32 ∨ (Rect.block (s := S16) S16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x16.size a ≤ S100000x16.size a
  hwx2_7 : ∀ i : grid2.Coords, EltTy.bits .f32 = 32 ∨ (Rect.block (s := S100000x16) S5000x16.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S5000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x128 : Shape := ⟨2, ![32, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 92
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's run with every buffer named.

  The program is three pipelined regions between three stretches of host operations. Its run from any launch memory ends,
  on every core, with every unscoped buffer at the last boundary's contents: the fold of the host stretches and of the
  regions' write-backs over the launch memory. The frame claim keeps only the argument arrays of that fact; the value
  claim needs the result array too, so the run is stated here with the whole final valuation, and the result buffer and
  the arguments are read off it.
-/
import proofs.«150826_j5841155522636_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer after the run: the last region's output array as its write-backs leave it. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41)) :=
  (θ_run defs _ _).mono (fun r h c => h c _ (mem_uc main_v41 (by decide))) (run_all m ρ)

end Cert.KernelIdeal.RunValue

end
-- ==== Proof.LibMatmulAt.lean ====
/-
  A matrix product into a zero accumulator, read at one entry, at the extended reals, whatever precision the product is asked at.

  Rows by columns: for [M, K] times [K, N], entry (p, q) is the finite sum over k of left(p, k) · right(k, q).
  Rows by rows: for [M, K] and [N, K] contracted along the SECOND axis of both, entry (p, q) is the sum over k of left(p, k) · right(q, k).
  The dimension record is any one whose contraction has one axis of extent K and whose operand indices at (output index, contraction index)
  have the coordinates stated as the four hypotheses (for a printed record each is one line: a non-contracting coordinate by unfolding,
  the contracting one by `lhsIdx_val_of_single` / `rhsIdx_val_of_single`).
-/
import Idealize.ShloMosaic.Lib.ValueIdx
import Idealize.ShloMosaic.PureOps.Ideal.Laws

noncomputable section

open scoped BigOperators

namespace Cert.LibMatmulAt

open Idealize.ShloMosaic Idealize.ShloMosaic.ValueIdx

/-- Rows by columns, into a zero accumulator, at entry (p, q): row p of the left operand against column q of the right. -/
theorem matmul_rows_cols_apply {M N K : Nat} {φ₁ φ₂ : FTy} (D : DotDims ⟨2, ![M, K]⟩ ⟨2, ![K, N]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![M, K]⟩ φ₁) (rhs : FVec Ideal ⟨2, ![K, N]⟩ φ₂) (p : Fin M) (q : Fin N) :
    FloatOps.matmul D pr lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- Rows by rows (the second axis of both operands contracted), into a zero accumulator, at entry (p, q): row p of the left
    operand against row q of the right. -/
theorem matmul_rows_rows_apply {M N K : Nat} {φ₁ φ₂ : FTy} (D : DotDims ⟨2, ![M, K]⟩ ⟨2, ![N, K]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (lhs : FVec Ideal ⟨2, ![M, K]⟩ φ₁) (rhs : FVec Ideal ⟨2, ![N, K]⟩ φ₂) (p : Fin M) (q : Fin N) :
    FloatOps.matmul D pr lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.LibMatmulAt

end
-- ==== Proof.KernelBodies.lean ====
/-
  The three kernel bodies' stored values read at one entry, at the extended reals.

  Each body works on a block of 5000 rows. The embedding body stores, at row p and column q, the sum over k of
  x(p,k)·W(k,q) plus the bias b(q). The two convolution bodies store max(0, ·) of the sum of two such products — the
  aggregated features against the relation weights and the node's own features against the root weights — plus the bias;
  the last body follows this by a third product against the output weights plus the output bias. A change of float
  format is the identity at the extended reals, so the narrow copies the first two bodies also store hold the same values.
-/
import proofs.«150826_j5841155522636_2_alg».proof.Proof.Gen.KernelIdeal.Skeleton
import proofs.«150826_j5841155522636_2_alg».proof.Proof.LibMatmulAt
import Idealize.ShloMosaic.Lib.ValueLayout
import Idealize.ShloMosaic.Lib.ValueIdx
import Idealize.ShloMosaic.Lib.Pipeline.Value

noncomputable section

open scoped BigOperators

namespace Cert.KernelIdeal.Bodies

open Idealize.ShloMosaic Idealize.ShloMosaic.ValueIdx Cert.KernelIdeal Cert.KernelIdeal.Gen

/-- A row [b] cast to [1, b] and repeated down a rows reads, at (p, q), the row's entry q. -/
theorem bias_row {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## The operand coordinates of the three products' dimension records -/

theorem dot_S5000x32_S32x128_S5000x128_1_0_0_1_n_n_l0 (i) (q : dot_S5000x32_S32x128_S5000x128_1_0_0_1_n_n.contr.Idx) : (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem dot_S5000x32_S32x128_S5000x128_1_0_0_1_n_n_l1 (i) (q : dot_S5000x32_S32x128_S5000x128_1_0_0_1_n_n.contr.Idx) : (dot_S5000x32_S32x128_S5000x128_1_0_0_1_n_n.lhsIdx i q 1).val = (q ⟨0, by decide⟩).val :=
  dot_S5000x32_S32x128_S5000x128_1_0_0_1_n_n.lhsIdx_val_of_single rfl i q
theorem dot_S5000x32_S32x128_S5000x128_1_0_0_1_n_n_r0 (i) (q : dot_S5000x32_S32x128_S5000x128_1_0_0_1_n_n.contr.Idx) : (dot_S5000x32_S32x128_S5000x128_1_0_0_1_n_n.rhsIdx i q 0).val = (q ⟨0, by decide⟩).val :=
  dot_S5000x32_S32x128_S5000x128_1_0_0_1_n_n.rhsIdx_val_of_single rfl i q
theorem dot_S5000x32_S32x128_S5000x128_1_0_0_1_n_n_r1 (i) (q : dot_S5000x32_S32x128_S5000x128_1_0_0_1_n_n.contr.Idx) : (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

theorem dot_S5000x128_S128x128_S5000x128_1_0_0_1_n_n_l0 (i) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_S5000x128_S128x128_S5000x128_1_0_0_1_n_n_l1 (i) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dot_S5000x128_S128x128_S5000x128_1_0_0_1_n_n_r0 (i) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dot_S5000x128_S128x128_S5000x128_1_0_0_1_n_n_r1 (i) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dot_S5000x128_S128x16_S5000x16_1_0_0_1_n_n_l0 (i) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem dot_S5000x128_S128x16_S5000x16_1_0_0_1_n_n_l1 (i) (q : dot_S5000x128_S128x16_S5000x16_1_0_0_1_n_n.contr.Idx) : (dot_S5000x128_S128x16_S5000x16_1_0_0_1_n_n.lhsIdx i q 1).val = (q ⟨0, by decide⟩).val :=
  dot_S5000x128_S128x16_S5000x16_1_0_0_1_n_n.lhsIdx_val_of_single rfl i q
theorem dot_S5000x128_S128x16_S5000x16_1_0_0_1_n_n_r0 (i) (q : dot_S5000x128_S128x16_S5000x16_1_0_0_1_n_n.contr.Idx) : (dot_S5000x128_S128x16_S5000x16_1_0_0_1_n_n.rhsIdx i q 0).val = (q ⟨0, by decide⟩).val :=
  dot_S5000x128_S128x16_S5000x16_1_0_0_1_n_n.rhsIdx_val_of_single rfl i q
theorem dot_S5000x128_S128x16_S5000x16_1_0_0_1_n_n_r1 (i) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- The embedding product at (p, q). -/
theorem mm0 {φ₁ φ₂ : FTy} (l : FVec Ideal S5000x32 φ₁) (r : FVec Ideal S32x128 φ₂) (p : Fin 5000) (q : Fin 128) :
    matmul dot_S5000x32_S32x128_S5000x128_1_0_0_1_n_n none l r (constant S5000x128 .f32 0x00000000#32) (ix2 p q) = ∑ k : Fin 32, l (ix2 p k) * r (ix2 k q) :=
  Cert.LibMatmulAt.matmul_rows_cols_apply dot_S5000x32_S32x128_S5000x128_1_0_0_1_n_n rfl rfl none dot_S5000x32_S32x128_S5000x128_1_0_0_1_n_n_l0 dot_S5000x32_S32x128_S5000x128_1_0_0_1_n_n_l1 dot_S5000x32_S32x128_S5000x128_1_0_0_1_n_n_r0 dot_S5000x32_S32x128_S5000x128_1_0_0_1_n_n_r1 l r p q

/-- A 128-wide product at (p, q). -/
theorem mm1 {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q) = ∑ k : Fin 128, l (ix2 p k) * r (ix2 k q) :=
  Cert.LibMatmulAt.matmul_rows_cols_apply dot_S5000x128_S128x128_S5000x128_1_0_0_1_n_n rfl rfl none dot_S5000x128_S128x128_S5000x128_1_0_0_1_n_n_l0 dot_S5000x128_S128x128_S5000x128_1_0_0_1_n_n_l1 dot_S5000x128_S128x128_S5000x128_1_0_0_1_n_n_r0 dot_S5000x128_S128x128_S5000x128_1_0_0_1_n_n_r1 l r p q

/-- The output product at (p, q). -/
theorem mm2 {φ₁ φ₂ : FTy} (l : FVec Ideal S5000x128 φ₁) (r : FVec Ideal S128x16 φ₂) (p : Fin 5000) (q : Fin 16) :
    matmul dot_S5000x128_S128x16_S5000x16_1_0_0_1_n_n none l r (constant S5000x16 .f32 0x00000000#32) (ix2 p q) = ∑ k : Fin 128, l (ix2 p k) * r (ix2 k q) :=
  Cert.LibMatmulAt.matmul_rows_cols_apply dot_S5000x128_S128x16_S5000x16_1_0_0_1_n_n rfl rfl none dot_S5000x128_S128x16_S5000x16_1_0_0_1_n_n_l0 dot_S5000x128_S128x16_S5000x16_1_0_0_1_n_n_l1 dot_S5000x128_S128x16_S5000x16_1_0_0_1_n_n_r0 dot_S5000x128_S128x16_S5000x16_1_0_0_1_n_n_r1 l r p q

/-! ## The stored values -/

/-- The embedding body's stored value at (p, q). -/
theorem pay0_apply (v0 : FVec Ideal S5000x32 .f32) (v2 : FVec Ideal S32x128 .f32) (v5 : FVec Ideal S128 .f32) (p : Fin 5000) (q : Fin 128) :
    k0_pay1 (F := Ideal) v0 v2 v5 (ix2 p q) = (∑ k : Fin 32, v0 (ix2 p k) * v2 (ix2 k q)) + v5 (ix1 q) := by
  unfold k0_pay1
  show matmul (F := Ideal) dot_S5000x32_S32x128_S5000x128_1_0_0_1_n_n none (truncf (F := Ideal) .bf16 v0 bitsLt_bf16_f32) (truncf (F := Ideal) .bf16 v2 bitsLt_bf16_f32) (constant (F := Ideal) S5000x128 .f32 0x00000000#32) (ix2 p q)
      + broadcastTo S5000x128 (shapeCast S1x128 v5 shapeCasts_S128_S1x128) broadcasts_S1x128_S5000x128 (ix2 p q) = _
  rw [mm0, bias_row]
  rfl

/-- The convolution body's stored value at (p, q): the aggregated features against the relation weights, plus the node's
    own features against the root weights, plus the bias, clamped below at zero. -/
theorem pay1_apply (v0 v3 : FVec Ideal S5000x128 .f32) (v6 v8 : FVec Ideal S128x128 .f32) (v13 : FVec Ideal S128 .f32)
    (p : Fin 5000) (q : Fin 128) :
    k1_pay1 (F := Ideal) v0 v3 v6 v8 v13 (ix2 p q)
      = max (((∑ k : Fin 128, v0 (ix2 p k) * v6 (ix2 k q)) + (∑ k : Fin 128, v3 (ix2 p k) * v8 (ix2 k q))) + v13 (ix1 q))
          (Ideal.ofBits .f32 0x00000000#32) := by
  unfold k1_pay1
  show max ((matmul (F := Ideal) dot_S5000x128_S128x128_S5000x128_1_0_0_1_n_n none
          (truncf (F := Ideal) .bf16 (shapeCast S5000x128 v0 shapeCasts_S5000x128_S5000x128) bitsLt_bf16_f32)
          (truncf (F := Ideal) .bf16 v6 bitsLt_bf16_f32) (constant (F := Ideal) S5000x128 .f32 0x00000000#32) (ix2 p q)
        + matmul (F := Ideal) dot_S5000x128_S128x128_S5000x128_1_0_0_1_n_n none
          (truncf (F := Ideal) .bf16 (shapeCast S5000x128 v3 shapeCasts_S5000x128_S5000x128) bitsLt_bf16_f32)
          (truncf (F := Ideal) .bf16 v8 bitsLt_bf16_f32) (constant (F := Ideal) S5000x128 .f32 0x00000000#32) (ix2 p q))
      + broadcastTo S5000x128 (shapeCast S1x128 v13 shapeCasts_S128_S1x128) broadcasts_S1x128_S5000x128 (ix2 p q))
      (Ideal.ofBits .f32 0x00000000#32) = _
  rw [mm1, mm1, bias_row, shapeCast_self, shapeCast_self]
  rfl

/-- The last body's stored value at (p, q): the convolution body's value along row p against the output weights, plus
    the output bias. -/
theorem pay2_apply (v0 v3 : FVec Ideal S5000x128 .f32) (v6 v8 : FVec Ideal S128x128 .f32) (v13 : FVec Ideal S128 .f32)
    (v20 : FVec Ideal S128x16 .f32) (v23 : FVec Ideal S16 .f32) (p : Fin 5000) (q : Fin 16) :
    k2_pay1 (F := Ideal) v0 v3 v6 v8 v13 v20 v23 (ix2 p q)
      = (∑ k : Fin 128, k1_pay1 (F := Ideal) v0 v3 v6 v8 v13 (ix2 p k) * v20 (ix2 k q)) + v23 (ix1 q) := by
  unfold k2_pay1
  show matmul (F := Ideal) dot_S5000x128_S128x16_S5000x16_1_0_0_1_n_n none
        (truncf (F := Ideal) .bf16 (k1_pay1 (F := Ideal) v0 v3 v6 v8 v13) bitsLt_bf16_f32)
        (truncf (F := Ideal) .bf16 v20 bitsLt_bf16_f32) (constant (F := Ideal) S5000x16 .f32 0x00000000#32) (ix2 p q)
      + broadcastTo S5000x16 (shapeCast S1x16 v23 shapeCasts_S16_S1x16) broadcasts_S1x16_S5000x16 (ix2 p q) = _
  rw [mm2, bias_row]
  rfl

end Cert.KernelIdeal.Bodies

end
-- ==== Proof.Spec.lean ====
/-
  The three stages of the network as whole-array functions on the extended reals.

  Node features are arrays [100000, 128]. The embedding sends x to x·W + b. A convolution stage takes the aggregated
  neighbour features A and the node's own features H to max(0, A·W_rel + H·W_root + b), entry by entry. The last stage is a
  convolution stage followed by the output layer, ·W_out + b_out, into [100000, 16]. A product's entry (n, c) is the
  finite sum over k of left(n, k)·right(k, c); a bias row is added to every row. The zero of the clamp is kept as the
  float word both programs spell.
-/
import Idealize.ShloMosaic.PureOps.Ideal
import Idealize.ShloMosaic.Lib.ValueIdx

noncomputable section

open scoped BigOperators

namespace Cert.Spec

open Idealize.ShloMosaic Idealize.ShloMosaic.ValueIdx

/-- An array [a, b] of extended reals. -/
abbrev Arr (a b : ℕ) : Type := (⟨2, ![a, b]⟩ : Shape).Idx → EReal
/-- A row [a] of extended reals. -/
abbrev Row (a : ℕ) : Type := (⟨1, ![a]⟩ : Shape).Idx → EReal

/-- The node embedding: x·W + b. -/
def embedG (x : Arr 100000 32) (W : Arr 32 128) (b : Row 128) : Arr 100000 128 :=
  fun i => (∑ k : Fin 32, x (ix2 (i 0) k) * W (ix2 k (i 1))) + b (ix1 (i 1))

/-- A convolution stage: max(0, A·W_rel + H·W_root + b). -/
def convG (A H : Arr 100000 128) (Wrel Wroot : Arr 128 128) (b : Row 128) : Arr 100000 128 :=
  fun i => max (((∑ k : Fin 128, A (ix2 (i 0) k) * Wrel (ix2 k (i 1))) + (∑ k : Fin 128, H (ix2 (i 0) k) * Wroot (ix2 k (i 1))))
      + b (ix1 (i 1))) (Ideal.ofBits .f32 0x00000000#32)

/-- The last stage: a convolution stage, then the output layer ·W_out + b_out. -/
def headG (A H : Arr 100000 128) (Wrel Wroot : Arr 128 128) (b : Row 128) (Wout : Arr 128 16) (bout : Row 16) : Arr 100000 16 :=
  fun i => (∑ k : Fin 128, convG A H Wrel Wroot b (ix2 (i 0) k) * Wout (ix2 k (i 1))) + bout (ix1 (i 1))

/-- A convolution stage whose aggregated term M is given already multiplied by the relation weights:
    max(0, M + H·W_root + b). -/
def convR (M H : Arr 100000 128) (Wroot : Arr 128 128) (b : Row 128) : Arr 100000 128 :=
  fun i => max ((M i + (∑ k : Fin 128, H (ix2 (i 0) k) * Wroot (ix2 k (i 1)))) + b (ix1 (i 1))) (Ideal.ofBits .f32 0x00000000#32)

/-- The last stage over such a term: a convolution stage, then the output layer. -/
def headR (M H : Arr 100000 128) (Wroot : Arr 128 128) (b : Row 128) (Wout : Arr 128 16) (bout : Row 16) : Arr 100000 16 :=
  fun i => (∑ k : Fin 128, convR M H Wroot b (ix2 (i 0) k) * Wout (ix2 k (i 1))) + bout (ix1 (i 1))

/-- The product of the aggregated features with the relation weights, as an array. -/
def relProd (A : Arr 100000 128) (Wrel : Arr 128 128) : Arr 100000 128 :=
  fun i => ∑ k : Fin 128, A (ix2 (i 0) k) * Wrel (ix2 k (i 1))

theorem convG_eq_convR (A H : Arr 100000 128) (Wrel Wroot : Arr 128 128) (b : Row 128) :
    convG A H Wrel Wroot b = convR (relProd A Wrel) H Wroot b := rfl

theorem headG_eq_headR (A H : Arr 100000 128) (Wrel Wroot : Arr 128 128) (b : Row 128) (Wout : Arr 128 16) (bout : Row 16) :
    headG A H Wrel Wroot b Wout bout = headR (relProd A Wrel) H Wroot b Wout bout := rfl

end Cert.Spec

end
-- ==== Proof.Region0.lean ====
/-
  The first region's two output arrays as one function of the arrays it is entered with.

  The region walks the 100000 node rows in 20 blocks of 5000. At point t it reads rows 5000·t … 5000·t + 4999 of the
  node features, the whole embedding weights and the whole bias, and writes rows 5000·t … of both outputs. Entry (p, q)
  of what it writes is the embedding of row 5000·t + p at column q, so block t of each output is block t of the embedding of
  the whole feature array, and the 20 blocks cover every row: each output array ends holding the embedding, the narrow copy
  the same values as the wide one.
-/
import proofs.«150826_j5841155522636_2_alg».proof.Proof.Gen.KernelIdeal.Frame
import proofs.«150826_j5841155522636_2_alg».proof.Proof.KernelBodies
import proofs.«150826_j5841155522636_2_alg».proof.Proof.Spec
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows sit at block (t, 0), the weights and the bias at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the feature block at point t is row 5000·t + p of the feature array. -/
theorem blk_x (c : Dev nD) (t : Fin cfg0.N) (p : Fin 5000) (k : Fin 32) (n : Fin 100000) (hn : n.val = t.val * 5000 + p.val) :
    (iblk0 V c 0 t : FVec Ideal S5000x32 .f32) (ix2 p k) = (V c main_arg0 : S100000x32.Idx → EReal) (ix2 n k) := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = n.val; omega
  | ⟨1, _⟩ => show win0_0.index t (1 : Fin 2) * 32 + 1 * k.val = k.val; omega

/-- The weights' block at every point is the whole weight array. -/
theorem blk_w (c : Dev nD) (t : Fin cfg0.N) :
    (iblk0 V c 1 t : FVec Ideal S32x128 .f32) = (V c main_arg2 : S32x128.Idx → EReal) := by
  obtain ⟨-, -, e2, e3, -⟩ := idx_facts t
  funext y
  unfold iblk0
  rw [View.read_apply]
  show V c main_arg2 _ = V c main_arg2 y
  refine congrArg _ ?_
  funext a
  apply Fin.ext
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The bias' block at every point is the whole bias. -/
theorem blk_b (c : Dev nD) (t : Fin cfg0.N) :
    (iblk0 V c 2 t : FVec Ideal S128 .f32) = (V c main_arg3 : S128.Idx → EReal) := by
  obtain ⟨-, -, -, -, e4, -⟩ := idx_facts t
  funext y
  unfold iblk0
  rw [View.read_apply]
  show V c main_arg3 _ = V c main_arg3 y
  refine congrArg _ ?_
  funext a
  apply Fin.ext
  match a with
  | ⟨0, _⟩ => show win0_2.index t (0 : Fin 1) * 128 + 1 * (y 0).val = (y 0).val; omega

/-- What the body stores at entry y of point t's block is the embedding at row 5000·t + y₀, column y₁. -/
theorem point (c : Dev nD) (t : Fin cfg0.N) (y : S5000x128.Idx) (i : S100000x128.Idx)
    (hi0 : (i 0).val = t.val * 5000 + (y 0).val) (hi1 : (i 1).val = (y 1).val) :
    k0_pay1 (F := Ideal) (iblk0 V c 0 t) (iblk0 V c 1 t) (iblk0 V c 2 t) y
      = embedG (V c main_arg0) (V c main_arg2) (V c main_arg3) i := by
  obtain ⟨p, q, rfl⟩ : ∃ (p : Fin 5000) (q : Fin 128), y = ix2 p q := ⟨y 0, y 1, eq_ix2 y⟩
  obtain ⟨n, q', rfl⟩ : ∃ (n : Fin 100000) (q' : Fin 128), i = ix2 n q' := ⟨i 0, i 1, eq_ix2 i⟩
  obtain rfl : q' = q := Fin.ext hi1
  refine (pay0_apply (iblk0 V c 0 t) (iblk0 V c 1 t) (iblk0 V c 2 t) p q').trans ?_
  rw [blk_w V c t, blk_b V c t]
  unfold embedG
  refine congrArg₂ (· + ·) (Finset.sum_congr rfl fun k _ => ?_) rfl
  exact congrArg (· * _) (blk_x V c t p k n hi0)

/-- An index of an output array is in point t's block iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v13_1).slice (win0_4.rect t)).set ↔ _
  rw [View.set_slice_whole, Rect.mem_set_unit]
  exact Iff.rfl

/-- What point t writes back to the wide output is block t of the embedding. -/
theorem flushed3 (c : Dev nD) (t : Fin cfg0.N) :
    (dat0 V c).flushed 3 t = ((cfg0.win 3).blk t).view.read (Elt Ideal) (embedG (V c main_arg0) (V c main_arg2) (V c main_arg3)) := by
  obtain ⟨-, -, -, -, -, e5, e6, -⟩ := idx_facts t
  show (cfg0.win 3).cut (grid0.coords t) ((dat0 V c).after 3 t) = _
  rw [after0_3]
  unfold out0_3
  rw [View.canon_unit_zero hz2]
  simp only [View.ld_unit_zero (S := S5000x32) hz2, View.ld_unit_zero (S := S32x128) hz2, View.ld_unit_zero (S := S128) hz1]
  funext j
  show k0_pay1 (F := Ideal) (iblk0 V c 0 t) (iblk0 V c 1 t) (iblk0 V c 2 t) j
      = embedG (V c main_arg0) (V c main_arg2) (V c main_arg3) (((cfg0.win 3).blk t).view.emb j)
  refine point V c t j _ ?_ ?_
  · show win0_3.index t (0 : Fin 2) * 5000 + 1 * (j 0).val = t.val * 5000 + (j 0).val; omega
  · show win0_3.index t (1 : Fin 2) * 128 + 1 * (j 1).val = (j 1).val; omega

/-- What point t writes back to the narrow output is the same block: the change of format is the identity. -/
theorem flushed4 (c : Dev nD) (t : Fin cfg0.N) :
    (dat0 V c).flushed 4 t = ((cfg0.win 4).blk t).view.read (Elt Ideal) (embedG (V c main_arg0) (V c main_arg2) (V c main_arg3)) := by
  obtain ⟨-, -, -, -, -, -, -, e7, e8⟩ := idx_facts t
  show (cfg0.win 4).cut (grid0.coords t) ((dat0 V c).after 4 t) = _
  rw [after0_4]
  unfold out0_4
  rw [View.canon_unit_zero hz2]
  simp only [View.ld_unit_zero (S := S5000x32) hz2, View.ld_unit_zero (S := S32x128) hz2, View.ld_unit_zero (S := S128) hz1]
  funext j
  show k0_pay1 (F := Ideal) (iblk0 V c 0 t) (iblk0 V c 1 t) (iblk0 V c 2 t) j
      = embedG (V c main_arg0) (V c main_arg2) (V c main_arg3) (((cfg0.win 4).blk t).view.emb j)
  refine point V c t j _ ?_ ?_
  · show win0_4.index t (0 : Fin 2) * 5000 + 1 * (j 0).val = t.val * 5000 + (j 0).val; omega
  · show win0_4.index t (1 : Fin 2) * 128 + 1 * (j 1).val = (j 1).val; omega

/-- Every row lies in the block of the point its row number divided by 5000 names. -/
theorem cover3 (i : S100000x128.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_3 _, ?_⟩
  obtain ⟨-, -, -, -, -, e5, e6, -⟩ := idx_facts ⟨(i 0).val / 5000, by rw [hN]; omega⟩
  rw [mem_blk3]
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e6]; omega

theorem cover4 (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_4 _, ?_⟩
  obtain ⟨-, -, -, -, -, -, -, e7, e8⟩ := idx_facts ⟨(i 0).val / 5000, by rw [hN]; omega⟩
  rw [mem_blk4]
  intro a
  match a with
  | ⟨0, _⟩ =>
    show win0_4.index _ (0 : Fin 2) * 5000 ≤ (i 0).val ∧ (i 0).val < win0_4.index _ (0 : Fin 2) * 5000 + 5000
    rw [e7]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e8]; omega

/-- The wide output array after the region: the embedding of the feature array the region was entered with. -/
theorem final3 (c : Dev nD) :
    (dat0 V c).arrAt 3 cfg0.N = embedG (V c main_arg0) (V c main_arg2) (V c main_arg3) :=
  (dat0 V c).arrAt_eq_of_cover 3 _ (fun t _ => flushed3 V c t) cover3

/-- The narrow output array after the region: the same embedding. -/
theorem final4 (c : Dev nD) :
    (dat0 V c).arrAt 4 cfg0.N = embedG (V c main_arg0) (V c main_arg2) (V c main_arg3) :=
  (dat0 V c).arrAt_eq_of_cover 4 _ (fun t _ => flushed4 V c t) cover4

end Cert.KernelIdeal.Region0

end
-- ==== Proof.Region1.lean ====
/-
  The second region's two output arrays as one function of the arrays it is entered with.

  The region walks the 100000 node rows in 20 blocks of 5000. At point t it reads rows 5000·t … 5000·t + 4999 of the
  aggregated neighbour features and of the node's own features, the whole relation weights, the whole root weights and
  the whole bias, and writes rows 5000·t … of both outputs. Entry (p, q) of what it writes is the convolution stage of
  row 5000·t + p at column q — the aggregated row against the relation weights, plus the node's own row against the root
  weights, plus the bias, clamped below at zero — so block t of each output is block t of the convolution stage of the
  whole arrays, and the 20 blocks cover every row: each output array ends holding the convolution stage, the narrow copy
  the same values as the wide one.
-/
import proofs.«150826_j5841155522636_2_alg».proof.Proof.Gen.KernelIdeal.Frame
import proofs.«150826_j5841155522636_2_alg».proof.Proof.KernelBodies
import proofs.«150826_j5841155522636_2_alg».proof.Proof.Spec
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the four row windows sit at block (t, 0), the two weight arrays and the bias
    at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of the aggregated-feature block at point t is row 5000·t + p of the aggregated-feature array. -/
theorem blk_a (c : Dev nD) (t : Fin cfg1.N) (p : Fin 5000) (k : Fin 128) (n : Fin 100000) (hn : n.val = t.val * 5000 + p.val) :
    (iblk1 V c 0 t : FVec Ideal S5000x128 .f32) (ix2 p k) = (V c main_v26 : S100000x128.Idx → EReal) (ix2 n k) := by
  obtain ⟨e0, e1, -⟩ := idx_facts t
  unfold iblk1
  rw [View.read_apply]
  show V c main_v26 _ = V c main_v26 _
  refine congrArg _ ?_
  funext a
  apply Fin.ext
  match a with
  | ⟨0, _⟩ => show win1_0.index t (0 : Fin 2) * 5000 + 1 * p.val = n.val; omega
  | ⟨1, _⟩ => show win1_0.index t (1 : Fin 2) * 128 + 1 * k.val = k.val; omega

/-- Row p of the node-feature block at point t is row 5000·t + p of the node-feature array. -/
theorem blk_h (c : Dev nD) (t : Fin cfg1.N) (p : Fin 5000) (k : Fin 128) (n : Fin 100000) (hn : n.val = t.val * 5000 + p.val) :
    (iblk1 V c 1 t : FVec Ideal S5000x128 .f32) (ix2 p k) = (V c main_v13_0 : S100000x128.Idx → EReal) (ix2 n k) := by
  obtain ⟨-, -, e2, e3, -⟩ := idx_facts t
  unfold iblk1
  rw [View.read_apply]
  show V c main_v13_0 _ = V c main_v13_0 _
  refine congrArg _ ?_
  funext a
  apply Fin.ext
  match a with
  | ⟨0, _⟩ => show win1_1.index t (0 : Fin 2) * 5000 + 1 * p.val = n.val; omega
  | ⟨1, _⟩ => show win1_1.index t (1 : Fin 2) * 128 + 1 * k.val = k.val; omega

/-- The relation weights' block at every point is the whole relation-weight array. -/
theorem blk_wrel (c : Dev nD) (t : Fin cfg1.N) :
    (iblk1 V c 2 t : FVec Ideal S128x128 .f32) = (V c main_arg4 : S128x128.Idx → EReal) := by
  obtain ⟨-, -, -, -, e4, e5, -⟩ := idx_facts t
  funext y
  unfold iblk1
  rw [View.read_apply]
  show V c main_arg4 _ = V c main_arg4 y
  refine congrArg _ ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The root weights' block at every point is the whole root-weight array. -/
theorem blk_wroot (c : Dev nD) (t : Fin cfg1.N) :
    (iblk1 V c 3 t : FVec Ideal S128x128 .f32) = (V c main_arg5 : S128x128.Idx → EReal) := by
  obtain ⟨-, -, -, -, -, -, e6, e7, -⟩ := idx_facts t
  funext y
  unfold iblk1
  rw [View.read_apply]
  show V c main_arg5 _ = V c main_arg5 y
  refine congrArg _ ?_
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias' block at every point is the whole bias. -/
theorem blk_b (c : Dev nD) (t : Fin cfg1.N) :
    (iblk1 V c 4 t : FVec Ideal S128 .f32) = (V c main_arg6 : S128.Idx → EReal) := by
  obtain ⟨-, -, -, -, -, -, -, -, e8, -⟩ := idx_facts t
  funext y
  unfold iblk1
  rw [View.read_apply]
  show V c main_arg6 _ = V c main_arg6 y
  refine congrArg _ ?_
  funext a
  apply Fin.ext
  match a with
  | ⟨0, _⟩ => show win1_4.index t (0 : Fin 1) * 128 + 1 * (y 0).val = (y 0).val; omega

/-- What the body stores at entry y of point t's block is the convolution stage at row 5000·t + y₀, column y₁. -/
theorem point (c : Dev nD) (t : Fin cfg1.N) (y : S5000x128.Idx) (i : S100000x128.Idx)
    (hi0 : (i 0).val = t.val * 5000 + (y 0).val) (hi1 : (i 1).val = (y 1).val) :
    k1_pay1 (F := Ideal) (iblk1 V c 0 t) (iblk1 V c 1 t) (iblk1 V c 2 t) (iblk1 V c 3 t) (iblk1 V c 4 t) y
      = convG (V c main_v26) (V c main_v13_0) (V c main_arg4) (V c main_arg5) (V c main_arg6) i := by
  obtain ⟨p, q, rfl⟩ : ∃ (p : Fin 5000) (q : Fin 128), y = ix2 p q := ⟨y 0, y 1, eq_ix2 y⟩
  obtain ⟨n, q', rfl⟩ : ∃ (n : Fin 100000) (q' : Fin 128), i = ix2 n q' := ⟨i 0, i 1, eq_ix2 i⟩
  obtain rfl : q' = q := Fin.ext hi1
  refine (pay1_apply (iblk1 V c 0 t) (iblk1 V c 1 t) (iblk1 V c 2 t) (iblk1 V c 3 t) (iblk1 V c 4 t) p q').trans ?_
  rw [blk_wrel V c t, blk_wroot V c t, blk_b V c t]
  unfold convG
  refine congrArg (max · _) ?_
  refine congrArg₂ (· + ·) (congrArg₂ (· + ·) (Finset.sum_congr rfl fun k _ => ?_) (Finset.sum_congr rfl fun k _ => ?_)) rfl
  · exact congrArg (· * _) (blk_a V c t p k n hi0)
  · exact congrArg (· * _) (blk_h V c t p k n hi0)

/-- An index of an output array is in point t's block iff each coordinate is in the block's range on its axis. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27_0).slice (win1_5.rect t)).set ↔ _
  rw [View.set_slice_whole, Rect.mem_set_unit]
  exact Iff.rfl

theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v27_1).slice (win1_6.rect t)).set ↔ _
  rw [View.set_slice_whole, Rect.mem_set_unit]
  exact Iff.rfl

/-- What point t writes back to the wide output is block t of the convolution stage. -/
theorem flushed5 (c : Dev nD) (t : Fin cfg1.N) :
    (dat1 V c).flushed 5 t = ((cfg1.win 5).blk t).view.read (Elt Ideal) (convG (V c main_v26) (V c main_v13_0) (V c main_arg4) (V c main_arg5) (V c main_arg6)) := by
  obtain ⟨-, -, -, -, -, -, -, -, -, e9, e10, -⟩ := idx_facts t
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  funext j
  show k1_pay1 (F := Ideal) (iblk1 V c 0 t) (iblk1 V c 1 t) (iblk1 V c 2 t) (iblk1 V c 3 t) (iblk1 V c 4 t) j
      = convG (V c main_v26) (V c main_v13_0) (V c main_arg4) (V c main_arg5) (V c main_arg6) (((cfg1.win 5).blk t).view.emb j)
  refine point V c t j _ ?_ ?_
  · show win1_5.index t (0 : Fin 2) * 5000 + 1 * (j 0).val = t.val * 5000 + (j 0).val; omega
  · show win1_5.index t (1 : Fin 2) * 128 + 1 * (j 1).val = (j 1).val; omega

/-- What point t writes back to the narrow output is the same block: the change of format is the identity. -/
theorem flushed6 (c : Dev nD) (t : Fin cfg1.N) :
    (dat1 V c).flushed 6 t = ((cfg1.win 6).blk t).view.read (Elt Ideal) (convG (V c main_v26) (V c main_v13_0) (V c main_arg4) (V c main_arg5) (V c main_arg6)) := by
  obtain ⟨-, -, -, -, -, -, -, -, -, -, -, e11, e12⟩ := idx_facts t
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S128) hz1]
  funext j
  show k1_pay1 (F := Ideal) (iblk1 V c 0 t) (iblk1 V c 1 t) (iblk1 V c 2 t) (iblk1 V c 3 t) (iblk1 V c 4 t) j
      = convG (V c main_v26) (V c main_v13_0) (V c main_arg4) (V c main_arg5) (V c main_arg6) (((cfg1.win 6).blk t).view.emb j)
  refine point V c t j _ ?_ ?_
  · show win1_6.index t (0 : Fin 2) * 5000 + 1 * (j 0).val = t.val * 5000 + (j 0).val; omega
  · show win1_6.index t (1 : Fin 2) * 128 + 1 * (j 1).val = (j 1).val; omega

/-- Every row lies in the block of the point its row number divided by 5000 names. -/
theorem cover5 (i : S100000x128.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_5 _, ?_⟩
  obtain ⟨-, -, -, -, -, -, -, -, -, e9, e10, -⟩ := idx_facts ⟨(i 0).val / 5000, by rw [hN]; omega⟩
  rw [mem_blk5]
  intro a
  match a with
  | ⟨0, _⟩ =>
    show win1_5.index _ (0 : Fin 2) * 5000 ≤ (i 0).val ∧ (i 0).val < win1_5.index _ (0 : Fin 2) * 5000 + 5000
    rw [e9]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e10]; omega

theorem cover6 (i : S100000x128.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_6 _, ?_⟩
  obtain ⟨-, -, -, -, -, -, -, -, -, -, -, e11, e12⟩ := idx_facts ⟨(i 0).val / 5000, by rw [hN]; omega⟩
  rw [mem_blk6]
  intro a
  match a with
  | ⟨0, _⟩ =>
    show win1_6.index _ (0 : Fin 2) * 5000 ≤ (i 0).val ∧ (i 0).val < win1_6.index _ (0 : Fin 2) * 5000 + 5000
    rw [e11]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e12]; omega

/-- The wide output array after the region: the convolution stage of the arrays the region was entered with. -/
theorem final5 (c : Dev nD) :
    (dat1 V c).arrAt 5 cfg1.N = convG (V c main_v26) (V c main_v13_0) (V c main_arg4) (V c main_arg5) (V c main_arg6) :=
  (dat1 V c).arrAt_eq_of_cover 5 _ (fun t _ => flushed5 V c t) cover5

/-- The narrow output array after the region: the same convolution stage. -/
theorem final6 (c : Dev nD) :
    (dat1 V c).arrAt 6 cfg1.N = convG (V c main_v26) (V c main_v13_0) (V c main_arg4) (V c main_arg5) (V c main_arg6) :=
  (dat1 V c).arrAt_eq_of_cover 6 _ (fun t _ => flushed6 V c t) cover6

end Cert.KernelIdeal.Region1

end
-- ==== Proof.Region2.lean ====
/-
  The last region's output array as one function of the arrays it is entered with.

  The region walks the 100000 node rows in 20 blocks of 5000. At point t it reads rows 5000·t … 5000·t + 4999 of the
  aggregated features and of the node features, the whole relation weights, root weights and bias, and the whole output
  weights and output bias, and writes rows 5000·t … of the output. Entry (p, q) of what it writes is the output layer of
  the convolution stage of row 5000·t + p, at column q: the sum over k of conv(5000·t + p, k)·W_out(k, q) plus b_out(q),
  where conv(n, k) is max(0, ·) of the sum over j of A(n, j)·W_rel(j, k) plus the sum over j of H(n, j)·W_root(j, k) plus
  b(k). So block t of the output is block t of the last stage of the whole arrays, and the 20 blocks cover every row:
  the output array ends holding the last stage.
-/
import proofs.«150826_j5841155522636_2_alg».proof.Proof.Gen.KernelIdeal.Frame
import proofs.«150826_j5841155522636_2_alg».proof.Proof.KernelBodies
import proofs.«150826_j5841155522636_2_alg».proof.Proof.Spec
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Bodies Cert.Spec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row windows sit at block (t, 0), the weights and the biases at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row p of the aggregated features' block at point t is row 5000·t + p of the aggregated feature array. -/
theorem blk_a (c : Dev nD) (t : Fin cfg2.N) (p : Fin 5000) (k : Fin 128) (n : Fin 100000) (hn : n.val = t.val * 5000 + p.val) :
    (iblk2 V c 0 t : FVec Ideal S5000x128 .f32) (ix2 p k) = (V c main_v40 : S100000x128.Idx → EReal) (ix2 n k) := by
  obtain ⟨e0, e1, -⟩ := idx_facts t
  unfold iblk2
  rw [View.read_apply]
  show V c main_v40 _ = V c main_v40 _
  refine congrArg _ ?_
  funext a
  apply Fin.ext
  match a with
  | ⟨0, _⟩ => show win2_0.index t (0 : Fin 2) * 5000 + 1 * p.val = n.val; omega
  | ⟨1, _⟩ => show win2_0.index t (1 : Fin 2) * 128 + 1 * k.val = k.val; omega

/-- Row p of the node features' block at point t is row 5000·t + p of the node feature array. -/
theorem blk_h (c : Dev nD) (t : Fin cfg2.N) (p : Fin 5000) (k : Fin 128) (n : Fin 100000) (hn : n.val = t.val * 5000 + p.val) :
    (iblk2 V c 1 t : FVec Ideal S5000x128 .f32) (ix2 p k) = (V c main_v27_0 : S100000x128.Idx → EReal) (ix2 n k) := by
  obtain ⟨-, -, e2, e3, -⟩ := idx_facts t
  unfold iblk2
  rw [View.read_apply]
  show V c main_v27_0 _ = V c main_v27_0 _
  refine congrArg _ ?_
  funext a
  apply Fin.ext
  match a with
  | ⟨0, _⟩ => show win2_1.index t (0 : Fin 2) * 5000 + 1 * p.val = n.val; omega
  | ⟨1, _⟩ => show win2_1.index t (1 : Fin 2) * 128 + 1 * k.val = k.val; omega

/-- The relation weights' block at every point is the whole weight array. -/
theorem blk_wrel (c : Dev nD) (t : Fin cfg2.N) :
    (iblk2 V c 2 t : FVec Ideal S128x128 .f32) = (V c main_arg7 : S128x128.Idx → EReal) := by
  obtain ⟨-, -, -, -, e4, e5, -⟩ := idx_facts t
  funext y
  unfold iblk2
  rw [View.read_apply]
  show V c main_arg7 _ = V c main_arg7 y
  refine congrArg _ ?_
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The root weights' block at every point is the whole weight array. -/
theorem blk_wroot (c : Dev nD) (t : Fin cfg2.N) :
    (iblk2 V c 3 t : FVec Ideal S128x128 .f32) = (V c main_arg8 : S128x128.Idx → EReal) := by
  obtain ⟨-, -, -, -, -, -, e6, e7, -⟩ := idx_facts t
  funext y
  unfold iblk2
  rw [View.read_apply]
  show V c main_arg8 _ = V c main_arg8 y
  refine congrArg _ ?_
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias' block at every point is the whole bias. -/
theorem blk_b (c : Dev nD) (t : Fin cfg2.N) :
    (iblk2 V c 4 t : FVec Ideal S128 .f32) = (V c main_arg9 : S128.Idx → EReal) := by
  obtain ⟨-, -, -, -, -, -, -, -, e8, -⟩ := idx_facts t
  funext y
  unfold iblk2
  rw [View.read_apply]
  show V c main_arg9 _ = V c main_arg9 y
  refine congrArg _ ?_
  funext a
  apply Fin.ext
  match a with
  | ⟨0, _⟩ => show win2_4.index t (0 : Fin 1) * 128 + 1 * (y 0).val = (y 0).val; omega

/-- The output weights' block at every point is the whole output weight array. -/
theorem blk_wout (c : Dev nD) (t : Fin cfg2.N) :
    (iblk2 V c 5 t : FVec Ideal S128x16 .f32) = (V c main_arg10 : S128x16.Idx → EReal) := by
  obtain ⟨-, -, -, -, -, -, -, -, -, e9, e10, -⟩ := idx_facts t
  funext y
  unfold iblk2
  rw [View.read_apply]
  show V c main_arg10 _ = V c main_arg10 y
  refine congrArg _ ?_
  funext a
  apply Fin.ext
  match a with
  | ⟨0, _⟩ => show win2_5.index t (0 : Fin 2) * 128 + 1 * (y 0).val = (y 0).val; omega
  | ⟨1, _⟩ => show win2_5.index t (1 : Fin 2) * 16 + 1 * (y 1).val = (y 1).val; omega

/-- The output bias' block at every point is the whole output bias. -/
theorem blk_bout (c : Dev nD) (t : Fin cfg2.N) :
    (iblk2 V c 6 t : FVec Ideal S16 .f32) = (V c main_arg11 : S16.Idx → EReal) := by
  obtain ⟨-, -, -, -, -, -, -, -, -, -, -, e11, -⟩ := idx_facts t
  funext y
  unfold iblk2
  rw [View.read_apply]
  show V c main_arg11 _ = V c main_arg11 y
  refine congrArg _ ?_
  funext a
  apply Fin.ext
  match a with
  | ⟨0, _⟩ => show win2_6.index t (0 : Fin 1) * 16 + 1 * (y 0).val = (y 0).val; omega

/-- What the body stores at entry y of point t's block is the last stage at row 5000·t + y₀, column y₁. -/
theorem point (c : Dev nD) (t : Fin cfg2.N) (y : S5000x16.Idx) (i : S100000x16.Idx)
    (hi0 : (i 0).val = t.val * 5000 + (y 0).val) (hi1 : (i 1).val = (y 1).val) :
    k2_pay1 (F := Ideal) (iblk2 V c 0 t) (iblk2 V c 1 t) (iblk2 V c 2 t) (iblk2 V c 3 t) (iblk2 V c 4 t) (iblk2 V c 5 t)
        (iblk2 V c 6 t) y
      = headG (V c main_v40) (V c main_v27_0) (V c main_arg7) (V c main_arg8) (V c main_arg9) (V c main_arg10)
          (V c main_arg11) i := by
  obtain ⟨p, q, rfl⟩ : ∃ (p : Fin 5000) (q : Fin 16), y = ix2 p q := ⟨y 0, y 1, eq_ix2 y⟩
  obtain ⟨n, q', rfl⟩ : ∃ (n : Fin 100000) (q' : Fin 16), i = ix2 n q' := ⟨i 0, i 1, eq_ix2 i⟩
  obtain rfl : q' = q := Fin.ext hi1
  refine (pay2_apply (iblk2 V c 0 t) (iblk2 V c 1 t) (iblk2 V c 2 t) (iblk2 V c 3 t) (iblk2 V c 4 t) (iblk2 V c 5 t)
    (iblk2 V c 6 t) p q').trans ?_
  rw [blk_wout V c t, blk_bout V c t]
  unfold headG
  refine congrArg₂ (· + ·) (Finset.sum_congr rfl fun k _ => ?_) rfl
  refine congrArg (· * _) ?_
  refine (pay1_apply (iblk2 V c 0 t) (iblk2 V c 1 t) (iblk2 V c 2 t) (iblk2 V c 3 t) (iblk2 V c 4 t) p k).trans ?_
  rw [blk_wrel V c t, blk_wroot V c t, blk_b V c t]
  unfold convG
  refine congrArg (max · _) ?_
  refine congrArg (· + _) ?_
  refine congrArg₂ (· + ·) (Finset.sum_congr rfl fun j _ => ?_) (Finset.sum_congr rfl fun j _ => ?_)
  · exact congrArg (· * _) (blk_a V c t p j n hi0)
  · exact congrArg (· * _) (blk_h V c t p j n hi0)

/-- An index of the output array is in point t's block iff each coordinate is in the block's range on its axis. -/
theorem mem_blk7 (t : Fin cfg2.N) (i : S100000x16.Idx) :
    i ∈ ((cfg2.win 7).blk t).view.set ↔ ∀ a : Fin 2, win2_7.index t a * S5000x16.size a ≤ (i a).val ∧ (i a).val < win2_7.index t a * S5000x16.size a + S5000x16.size a := by
  show i ∈ ((View.whole main_v41).slice (win2_7.rect t)).set ↔ _
  rw [View.set_slice_whole, Rect.mem_set_unit]
  exact Iff.rfl

/-- What point t writes back to the output is block t of the last stage. -/
theorem flushed7 (c : Dev nD) (t : Fin cfg2.N) :
    (dat2 V c).flushed 7 t = ((cfg2.win 7).blk t).view.read (Elt Ideal)
      (headG (V c main_v40) (V c main_v27_0) (V c main_arg7) (V c main_arg8) (V c main_arg9) (V c main_arg10) (V c main_arg11)) := by
  obtain ⟨-, -, -, -, -, -, -, -, -, -, -, -, e12, e13⟩ := idx_facts t
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1,
    View.ld_unit_zero (S := S128x16) hz2, View.ld_unit_zero (S := S16) hz1]
  funext j
  show k2_pay1 (F := Ideal) (iblk2 V c 0 t) (iblk2 V c 1 t) (iblk2 V c 2 t) (iblk2 V c 3 t) (iblk2 V c 4 t) (iblk2 V c 5 t)
        (iblk2 V c 6 t) j
      = headG (V c main_v40) (V c main_v27_0) (V c main_arg7) (V c main_arg8) (V c main_arg9) (V c main_arg10)
          (V c main_arg11) (((cfg2.win 7).blk t).view.emb j)
  refine point V c t j _ ?_ ?_
  · show win2_7.index t (0 : Fin 2) * 5000 + 1 * (j 0).val = t.val * 5000 + (j 0).val; omega
  · show win2_7.index t (1 : Fin 2) * 16 + 1 * (j 1).val = (j 1).val; omega

/-- Every row lies in the block of the point its row number divided by 5000 names. -/
theorem cover7 (i : S100000x16.Idx) : ∃ t : Fin cfg2.N, (cfg2.win 7).flush t = true ∧ i ∈ ((cfg2.win 7).blk t).view.set := by
  have hN : cfg2.N = 20 := N_2
  have hi0 : (i 0).val < 100000 := (i 0).isLt
  have hi1 : (i 1).val < 16 := (i 1).isLt
  refine ⟨⟨(i 0).val / 5000, by rw [hN]; omega⟩, flush2_7 _, ?_⟩
  obtain ⟨-, -, -, -, -, -, -, -, -, -, -, -, e12, e13⟩ := idx_facts ⟨(i 0).val / 5000, by rw [hN]; omega⟩
  rw [mem_blk7]
  intro a
  match a with
  | ⟨0, _⟩ =>
    show win2_7.index _ (0 : Fin 2) * 5000 ≤ (i 0).val ∧ (i 0).val < win2_7.index _ (0 : Fin 2) * 5000 + 5000
    rw [e12]; show (i 0).val / 5000 * 5000 ≤ (i 0).val ∧ (i 0).val < (i 0).val / 5000 * 5000 + 5000; omega
  | ⟨1, _⟩ =>
    show win2_7.index _ (1 : Fin 2) * 16 ≤ (i 1).val ∧ (i 1).val < win2_7.index _ (1 : Fin 2) * 16 + 16
    rw [e13]; omega

/-- The output array after the region: the last stage of the arrays the region was entered with. -/
theorem final7 (c : Dev nD) :
    (dat2 V c).arrAt 7 cfg2.N = headG (V c main_v40) (V c main_v27_0) (V c main_arg7) (V c main_arg8) (V c main_arg9) (V c main_arg10) (V c main_arg11) :=
  (dat2 V c).arrAt_eq_of_cover 7 _ (fun t _ => flushed7 V c t) cover7

end Cert.KernelIdeal.Region2

end
-- ==== Proof.KernelHostTerms.lean ====
/-
  The host code of the idealized kernel between its regions, as named functions of the edge list.

  The two rows of the edge list give every edge's source and end node. The in-degree of a node is a scatter-add of ones at
  the end nodes; its reciprocal, after clamping below at one, scales a node's aggregated row. The aggregation itself gathers
  the source node's (narrow) feature row for every edge, adds the gathered rows of the edges that end at a node into that
  node's row starting from zero, and multiplies the row by the reciprocal.
-/
import proofs.«150826_j5841155522636_2_alg».proof.Proof.Gen.KernelIdeal
import Idealize.ShloMosaic.PureOps.Ideal

noncomputable section

namespace Cert.KernelIdeal.Chain

open Idealize.ShloMosaic Idealize.ShloMosaic.TcCoe
open Cert.KernelIdeal Cert.KernelIdeal.Gen

/-- The edges' source nodes: row 0 of the edge list. -/
def srcV (x1 : IVec S2x1600000 32) : IVec S1600000 32 :=
  shapeCast S1600000 (extractStridedSlice S1x1600000 ![0, 0] x1 slices_S2x1600000_S1x1600000_0_0) shapeCasts_S1x1600000_S1600000

/-- The edges' end nodes: row 1 of the edge list. -/
def dstV (x1 : IVec S2x1600000 32) : IVec S1600000 32 :=
  shapeCast S1600000 (extractStridedSlice S1x1600000 ![1, 0] x1 slices_S2x1600000_S1x1600000_1_0) shapeCasts_S1x1600000_S1600000

/-- The scatter's indices: the end nodes as a column. -/
def dstIdx (x1 : IVec S2x1600000 32) : IVec S1600000x1 32 :=
  broadcastInDim S1600000x1 ![0] bcast_S1600000_S1600000x1_0 (dstV x1)

/-- The gather's start indices: the source nodes, a negative one moved up by the number of nodes, as a column. -/
def srcIdx (x1 : IVec S2x1600000 32) : IVec S1600000x1 32 :=
  broadcastInDim S1600000x1 ![0] bcast_S1600000_S1600000x1_0
    (select (cmpi .slt (srcV x1) (broadcastInDim S1600000 ![] bcast_S_S1600000 (constantI S_ 32 0#32)))
      (addi (srcV x1) (broadcastInDim S1600000 ![] bcast_S_S1600000 (constantI S_ 32 100000#32))) (srcV x1))

/-- The in-degree of every node: ones added at the end nodes. -/
def cntV (x1 : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstIdx x1)
    (broadcastInDim S1600000 ![] bcast_S_S1600000 (constant (F := Ideal) S_ .f32 0x3F800000#32))

/-- The reciprocal of the in-degree clamped below at one, as a column. -/
def invCol (x1 : IVec S2x1600000 32) : FVec Ideal S100000x1 .f32 :=
  shapeCast S100000x1
    (Host.divf (F := Ideal) (broadcastInDim S100000 ![] bcast_S_S100000 (constant (F := Ideal) S_ .f32 0x3F800000#32))
      (maximumf (F := Ideal) (cntV x1) (broadcastInDim S100000 ![] bcast_S_S100000 (constant (F := Ideal) S_ .f32 0x3F800000#32))))
    shapeCasts_S100000_S100000x1

/-- The kernel's mean aggregation of a (narrow) feature array: gather, add into the end node's row, scale. -/
def aggK (Hb : FVec Ideal S100000x128 .bf16) (x1 : IVec S2x1600000 32) : FVec Ideal S100000x128 .f32 :=
  mulf (F := Ideal)
    (Host.scatterAdd (F := Ideal) scatter_S100000x128_S1600000x1_S1600000x128_1_0_0_1
      (broadcastInDim S100000x128 ![] bcast_S_S100000x128 (constant (F := Ideal) S_ .f32 0x00000000#32)) (dstIdx x1)
      (extf (F := Ideal) .f32 (Host.gather gather_S100000x128_S1600000x1_S1600000x128_1_0_n_n_0_1_1128 Hb (srcIdx x1)) bitsLt_bf16_f32))
    (broadcastInDim S100000x128 ![0, 1] bcast_S100000x1_S100000x128_0_1 (invCol x1))

end Cert.KernelIdeal.Chain

end
-- ==== Proof.KernelChain.lean ====
/-
  The idealized kernel's buffers at each boundary of its run, as functions of the argument arrays.

  The host code between the regions prepares the edge data once — the two rows of the edge list, the in-degree of every
  node by a scatter-add of ones, its reciprocal after clamping below at one — and before each convolution aggregates the
  neighbours' features: it gathers the source node's (narrow) feature row for every edge, adds the gathered rows of the
  edges that end at a node into that node's row, and scales the row by the reciprocal in-degree. Each region's outputs
  are the stage functions of the arrays the region is entered with; composing the three gives the result array.
-/
import proofs.«150826_j5841155522636_2_alg».proof.Proof.Gen.KernelIdeal.Frame
import proofs.«150826_j5841155522636_2_alg».proof.Proof.Region0
import proofs.«150826_j5841155522636_2_alg».proof.Proof.Region1
import proofs.«150826_j5841155522636_2_alg».proof.Proof.Region2
import proofs.«150826_j5841155522636_2_alg».proof.Proof.KernelHostTerms
import proofs.«150826_j5841155522636_2_alg».proof.Proof.Spec
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-! ## After the first stretch -/

theorem W1_src (c : Dev nD) : W1 m ρ c (Proc.devRef .tc main_v1) = srcV (m ((c : Thread nD τ).loc main_arg1)) := by
  show StableHlo.after hostOps0 (W0 m ρ c) (Proc.devRef .tc main_v1) = _
  after_results
  rfl

theorem W1_dst (c : Dev nD) : W1 m ρ c (Proc.devRef .tc main_v3) = dstV (m ((c : Thread nD τ).loc main_arg1)) := by
  show StableHlo.after hostOps0 (W0 m ρ c) (Proc.devRef .tc main_v3) = _
  after_results
  rfl

theorem W1_inv (c : Dev nD) : W1 m ρ c (Proc.devRef .tc main_v12) = invCol (m ((c : Thread nD τ).loc main_arg1)) := by
  show StableHlo.after hostOps0 (W0 m ρ c) (Proc.devRef .tc main_v12) = _
  after_results
  rfl

/-! ## The arguments as each region finds them -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-- The embedded features, wide copy, after the first region. -/
theorem W2_h0 (c : Dev nD) :
    W2 m ρ c (Proc.devRef .tc main_v13_0) = embedG (m ((c : Thread nD τ).loc main_arg0)) (m ((c : Thread nD τ).loc main_arg2)) (m ((c : Thread nD τ).loc main_arg3)) := by
  refine (W2_arr m ρ c 3).trans ((Region0.final3 (V1 m ρ) c).trans ?_)
  rw [V1_arg0 m ρ c, V1_arg2 m ρ c, V1_arg3 m ρ c]

/-- The embedded features, narrow copy, after the first region: the same values. -/
theorem W2_h0b (c : Dev nD) :
    W2 m ρ c (Proc.devRef .tc main_v13_1) = embedG (m ((c : Thread nD τ).loc main_arg0)) (m ((c : Thread nD τ).loc main_arg2)) (m ((c : Thread nD τ).loc main_arg3)) := by
  refine (W2_arr m ρ c 4).trans ((Region0.final4 (V1 m ρ) c).trans ?_)
  rw [V1_arg0 m ρ c, V1_arg2 m ρ c, V1_arg3 m ρ c]

theorem W2_src (c : Dev nD) : W2 m ρ c (Proc.devRef .tc main_v1) = srcV (m ((c : Thread nD τ).loc main_arg1)) :=
  (W2_of_ne m ρ c main_v1 (by decide)).trans (W1_src m ρ c)
theorem W2_dst (c : Dev nD) : W2 m ρ c (Proc.devRef .tc main_v3) = dstV (m ((c : Thread nD τ).loc main_arg1)) :=
  (W2_of_ne m ρ c main_v3 (by decide)).trans (W1_dst m ρ c)
theorem W2_inv (c : Dev nD) : W2 m ρ c (Proc.devRef .tc main_v12) = invCol (m ((c : Thread nD τ).loc main_arg1)) :=
  (W2_of_ne m ρ c main_v12 (by decide)).trans (W1_inv m ρ c)

/-! ## After the second stretch -/

set_option maxHeartbeats 2000000 in
/-- The first aggregation: the kernel's mean of the embedded features. -/
theorem W3_agg (c : Dev nD) :
    W3 m ρ c (Proc.devRef .tc main_v26) = aggK (W2 m ρ c (Proc.devRef .tc main_v13_1)) (m ((c : Thread nD τ).loc main_arg1)) := by
  show StableHlo.after hostOps1 (W2 m ρ c) (Proc.devRef .tc main_v26) = _
  after_results_simp
  rw [W2_src m ρ c, W2_dst m ρ c, W2_inv m ρ c]
  rfl

/-- The second stretch leaves the wide embedded features as they were. -/
theorem W3_h0 (c : Dev nD) : W3 m ρ c (Proc.devRef .tc main_v13_0) = W2 m ρ c (Proc.devRef .tc main_v13_0) := by
  show StableHlo.after hostOps1 (W2 m ρ c) (Proc.devRef .tc main_v13_0) = _
  after_results_simp

theorem W3_src (c : Dev nD) : W3 m ρ c (Proc.devRef .tc main_v1) = srcV (m ((c : Thread nD τ).loc main_arg1)) := by
  show StableHlo.after hostOps1 (W2 m ρ c) (Proc.devRef .tc main_v1) = _
  after_results_simp
  exact W2_src m ρ c
theorem W3_dst (c : Dev nD) : W3 m ρ c (Proc.devRef .tc main_v3) = dstV (m ((c : Thread nD τ).loc main_arg1)) := by
  show StableHlo.after hostOps1 (W2 m ρ c) (Proc.devRef .tc main_v3) = _
  after_results_simp
  exact W2_dst m ρ c
theorem W3_inv (c : Dev nD) : W3 m ρ c (Proc.devRef .tc main_v12) = invCol (m ((c : Thread nD τ).loc main_arg1)) := by
  show StableHlo.after hostOps1 (W2 m ρ c) (Proc.devRef .tc main_v12) = _
  after_results_simp
  exact W2_inv m ρ c

/-! ## The weights of the two convolutions as their regions find them: no stretch and no region writes an argument -/

theorem W5_keep4 (c : Dev nD) : W5 m ρ c (Proc.devRef .tc main_arg4) = W4 m ρ c (Proc.devRef .tc main_arg4) := by
  show StableHlo.after hostOps2 (W4 m ρ c) (Proc.devRef .tc main_arg4) = _
  after_results_simp
theorem W5_keep5 (c : Dev nD) : W5 m ρ c (Proc.devRef .tc main_arg5) = W4 m ρ c (Proc.devRef .tc main_arg5) := by
  show StableHlo.after hostOps2 (W4 m ρ c) (Proc.devRef .tc main_arg5) = _
  after_results_simp
theorem W5_keep6 (c : Dev nD) : W5 m ρ c (Proc.devRef .tc main_arg6) = W4 m ρ c (Proc.devRef .tc main_arg6) := by
  show StableHlo.after hostOps2 (W4 m ρ c) (Proc.devRef .tc main_arg6) = _
  after_results_simp

theorem V3_arg4 (c : Dev nD) : V3 m ρ c main_arg4 = m ((c : Thread nD τ).loc main_arg4) :=
  ((W4_arr m ρ c 2).trans (((dat1 (V3 m ρ) c).arrAt_in 2 rfl _).trans (A_eq1 (V3 m ρ) c 2))).symm.trans
    ((W5_keep4 m ρ c).symm.trans ((W6_of_ne m ρ c main_arg4 (by decide)).symm.trans (W6_main_arg4 m ρ c)))
theorem V3_arg5 (c : Dev nD) : V3 m ρ c main_arg5 = m ((c : Thread nD τ).loc main_arg5) :=
  ((W4_arr m ρ c 3).trans (((dat1 (V3 m ρ) c).arrAt_in 3 rfl _).trans (A_eq1 (V3 m ρ) c 3))).symm.trans
    ((W5_keep5 m ρ c).symm.trans ((W6_of_ne m ρ c main_arg5 (by decide)).symm.trans (W6_main_arg5 m ρ c)))
theorem V3_arg6 (c : Dev nD) : V3 m ρ c main_arg6 = m ((c : Thread nD τ).loc main_arg6) :=
  ((W4_arr m ρ c 4).trans (((dat1 (V3 m ρ) c).arrAt_in 4 rfl _).trans (A_eq1 (V3 m ρ) c 4))).symm.trans
    ((W5_keep6 m ρ c).symm.trans ((W6_of_ne m ρ c main_arg6 (by decide)).symm.trans (W6_main_arg6 m ρ c)))

theorem V5_arg7 (c : Dev nD) : V5 m ρ c main_arg7 = m ((c : Thread nD τ).loc main_arg7) :=
  ((W6_arr m ρ c 2).trans (((dat2 (V5 m ρ) c).arrAt_in 2 rfl _).trans (A_eq2 (V5 m ρ) c 2))).symm.trans (W6_main_arg7 m ρ c)
theorem V5_arg8 (c : Dev nD) : V5 m ρ c main_arg8 = m ((c : Thread nD τ).loc main_arg8) :=
  ((W6_arr m ρ c 3).trans (((dat2 (V5 m ρ) c).arrAt_in 3 rfl _).trans (A_eq2 (V5 m ρ) c 3))).symm.trans (W6_main_arg8 m ρ c)
theorem V5_arg9 (c : Dev nD) : V5 m ρ c main_arg9 = m ((c : Thread nD τ).loc main_arg9) :=
  ((W6_arr m ρ c 4).trans (((dat2 (V5 m ρ) c).arrAt_in 4 rfl _).trans (A_eq2 (V5 m ρ) c 4))).symm.trans (W6_main_arg9 m ρ c)
theorem V5_arg10 (c : Dev nD) : V5 m ρ c main_arg10 = m ((c : Thread nD τ).loc main_arg10) :=
  ((W6_arr m ρ c 5).trans (((dat2 (V5 m ρ) c).arrAt_in 5 rfl _).trans (A_eq2 (V5 m ρ) c 5))).symm.trans (W6_main_arg10 m ρ c)
theorem V5_arg11 (c : Dev nD) : V5 m ρ c main_arg11 = m ((c : Thread nD τ).loc main_arg11) :=
  ((W6_arr m ρ c 6).trans (((dat2 (V5 m ρ) c).arrAt_in 6 rfl _).trans (A_eq2 (V5 m ρ) c 6))).symm.trans (W6_main_arg11 m ρ c)

/-! ## After the second region -/

/-- The embedded features. -/
abbrev h0 (c : Dev nD) : Arr 100000 128 :=
  embedG (m ((c : Thread nD τ).loc main_arg0)) (m ((c : Thread nD τ).loc main_arg2)) (m ((c : Thread nD τ).loc main_arg3))

/-- The first convolution's features. -/
abbrev h1 (c : Dev nD) : Arr 100000 128 :=
  convG (aggK (h0 m c) (m ((c : Thread nD τ).loc main_arg1))) (h0 m c) (m ((c : Thread nD τ).loc main_arg4)) (m ((c : Thread nD τ).loc main_arg5)) (m ((c : Thread nD τ).loc main_arg6))

theorem W4_h1 (c : Dev nD) : W4 m ρ c (Proc.devRef .tc main_v27_0) = h1 m c := by
  refine (W4_arr m ρ c 5).trans ((Region1.final5 (V3 m ρ) c).trans ?_)
  rw [show V3 m ρ c main_v26 = _ from W3_agg m ρ c, W2_h0b m ρ c,
    show V3 m ρ c main_v13_0 = _ from (W3_h0 m ρ c).trans (W2_h0 m ρ c), V3_arg4 m ρ c, V3_arg5 m ρ c, V3_arg6 m ρ c]

theorem W4_h1b (c : Dev nD) : W4 m ρ c (Proc.devRef .tc main_v27_1) = h1 m c := by
  refine (W4_arr m ρ c 6).trans ((Region1.final6 (V3 m ρ) c).trans ?_)
  rw [show V3 m ρ c main_v26 = _ from W3_agg m ρ c, W2_h0b m ρ c,
    show V3 m ρ c main_v13_0 = _ from (W3_h0 m ρ c).trans (W2_h0 m ρ c), V3_arg4 m ρ c, V3_arg5 m ρ c, V3_arg6 m ρ c]

theorem W4_src (c : Dev nD) : W4 m ρ c (Proc.devRef .tc main_v1) = srcV (m ((c : Thread nD τ).loc main_arg1)) :=
  (W4_of_ne m ρ c main_v1 (by decide)).trans (W3_src m ρ c)
theorem W4_dst (c : Dev nD) : W4 m ρ c (Proc.devRef .tc main_v3) = dstV (m ((c : Thread nD τ).loc main_arg1)) :=
  (W4_of_ne m ρ c main_v3 (by decide)).trans (W3_dst m ρ c)
theorem W4_inv (c : Dev nD) : W4 m ρ c (Proc.devRef .tc main_v12) = invCol (m ((c : Thread nD τ).loc main_arg1)) :=
  (W4_of_ne m ρ c main_v12 (by decide)).trans (W3_inv m ρ c)

/-! ## After the third stretch, and the result -/

set_option maxHeartbeats 2000000 in
/-- The second aggregation: the kernel's mean of the first convolution's features. -/
theorem W5_agg (c : Dev nD) :
    W5 m ρ c (Proc.devRef .tc main_v40) = aggK (W4 m ρ c (Proc.devRef .tc main_v27_1)) (m ((c : Thread nD τ).loc main_arg1)) := by
  show StableHlo.after hostOps2 (W4 m ρ c) (Proc.devRef .tc main_v40) = _
  after_results_simp
  rw [W4_src m ρ c, W4_dst m ρ c, W4_inv m ρ c]
  rfl

/-- The third stretch leaves the first convolution's wide features as they were. -/
theorem W5_h1 (c : Dev nD) : W5 m ρ c (Proc.devRef .tc main_v27_0) = W4 m ρ c (Proc.devRef .tc main_v27_0) := by
  show StableHlo.after hostOps2 (W4 m ρ c) (Proc.devRef .tc main_v27_0) = _
  after_results_simp

/-- The kernel's result as a function of its arguments: the last stage over the second aggregation. -/
abbrev out (c : Dev nD) : Arr 100000 16 :=
  headG (aggK (h1 m c) (m ((c : Thread nD τ).loc main_arg1))) (h1 m c) (m ((c : Thread nD τ).loc main_arg7)) (m ((c : Thread nD τ).loc main_arg8)) (m ((c : Thread nD τ).loc main_arg9))
    (m ((c : Thread nD τ).loc main_arg10)) (m ((c : Thread nD τ).loc main_arg11))

/-- The result buffer after the run. -/
theorem W6_out (c : Dev nD) : W6 m ρ c (Proc.devRef .tc main_v41) = out m c := by
  refine (W6_arr m ρ c 7).trans ((Region2.final7 (V5 m ρ) c).trans ?_)
  rw [show V5 m ρ c main_v40 = _ from W5_agg m ρ c, W4_h1b m ρ c,
    show V5 m ρ c main_v27_0 = _ from (W5_h1 m ρ c).trans (W4_h1 m ρ c), V5_arg7 m ρ c, V5_arg8 m ρ c, V5_arg9 m ρ c,
    V5_arg10 m ρ c, V5_arg11 m ρ c]

end Cert.KernelIdeal.Chain

end
-- ==== Proof.SpecRef.lean ====
/-
  The reference's mean aggregation as one function of the node features, the relation weights and the edge data.

  The reference gathers the source node's feature row for every edge, multiplies each gathered row by the relation
  weights, adds the products of the edges that end at a node into that node's row (starting from zero), and divides each
  row by the node's clamped in-degree. The edge data enter as three arrays: the gather's start indices, the scatter's
  indices, and the clamped in-degree repeated along the row.
-/
import proofs.«150826_j5841155522636_2_alg».proof.ReferenceIdeal
import proofs.«150826_j5841155522636_2_alg».proof.Proof.Spec

noncomputable section

namespace Cert.SpecRef

open Idealize.ShloMosaic Idealize.ShloMosaic.ValueIdx Cert.ReferenceIdeal
open Cert.ReferenceIdeal.Facts₀

variable [Cert.ReferenceIdeal.Facts₀]

/-- Gather, multiply by the relation weights edge by edge, add into the end node's row, divide by the clamped in-degree. -/
def meanR (H : FVec Ideal S100000x128 .f32) (W : FVec Ideal S128x128 .f32) (srcI dstI : IVec S1600000x1 32)
    (cntB : FVec Ideal S100000x128 .f32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32)) dstI
      (Host.dotGeneral (F := Ideal) dot_S1600000x128_S128x128_S1600000x128_1_0_0_1_n_n none
        (Host.gather gather_S100000x128_S1600000x1_S1600000x128_1_0_n_n_0_1_1128 H srcI) W))
    cntB

end Cert.SpecRef

end
-- ==== Proof.RefValue.lean ====
/-
  The reference program's result array is the network's three stages composed.

  The reference computes the embedding h0 = x·W + b; then, twice, a convolution stage
  h' = max(0, mean(h) + h·W_root + b), where mean(h) gathers the source node's feature row for every edge, multiplies it by
  the relation weights, adds the products of the edges ending at a node into that node's row and divides by the node's
  clamped in-degree; then the output layer h2·W_out + b_out. Each stage is a whole-array function (the embedding, the
  convolution stage over a given aggregated term, the last stage over it, and the mean aggregation), and the result is
  their composition. Nothing here is arithmetic on the extended reals: on one side each operation of the reference is
  read at an index (a product's entry (n, c) as the sum over k of left(n, k)·right(k, c), a broadcast bias row at c, the
  clamp's zero as the float word 0); on the other side the stage function is unfolded at the same index; the two agree
  once the indices are identified. The mean aggregation is not read at an index at all: the reference's four
  operations and the function are the same term. The edge data enter as three arrays computed from the edge list
  alone, which the second layer recomputes under other names.
-/
import proofs.«150826_j5841155522636_2_alg».proof.Proof.Gen.ReferenceIdeal.Read
import proofs.«150826_j5841155522636_2_alg».proof.Proof.SpecRef
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read Cert.Spec Cert.SpecRef
open scoped BigOperators

variable [Cert.ReferenceIdeal.Facts]

/-! ### The edge data: three arrays that depend on the edge list only -/

/-- The gather's start indices: the source node of every edge. -/
abbrev srcI (x1 : IVec S2x1600000 32) : IVec S1600000x1 32 := val_main_v13 (F := Ideal) x1
/-- The scatter's indices: the end node of every edge. -/
abbrev dstI (x1 : IVec S2x1600000 32) : IVec S1600000x1 32 := val_main_v17 (F := Ideal) x1
/-- The clamped in-degree of every node, repeated along the row. -/
abbrev cntB (x1 : IVec S2x1600000 32) : FVec Ideal S100000x128 .f32 := val_main_v26 (F := Ideal) x1

/-! ### Index identifications

A product's entry (n, c) reads its left operand at (n, k) and its right operand at (k, c); a bias row broadcast to every
row is read at c. The reference spells these indices coordinate by coordinate; they are the indices `ix2` / `ix1` build. -/

private theorem lidx4 (i : S100000x128.Idx) (k : Fin 32) : lidx_main_v4 i k = ix2 (i 0) k :=
  funext fun a => Fin.ext (by match a with | ⟨0, _⟩ => rfl | ⟨1, _⟩ => rfl)
private theorem ridx4 (i : S100000x128.Idx) (k : Fin 32) : ridx_main_v4 i k = ix2 k (i 1) :=
  funext fun a => Fin.ext (by match a with | ⟨0, _⟩ => rfl | ⟨1, _⟩ => rfl)
private theorem bidx6 (i : S100000x128.Idx) : idx_main_v5 (idx_main_v6 i) = ix1 (i 1) :=
  funext fun a => Fin.ext (by match a with | ⟨0, _⟩ => rfl)

/-! ### The embedding -/

/-- The reference's first stage is the embedding x·W + b. -/
theorem v7_eq (x0 : FVec Ideal S100000x32 .f32) (x2 : FVec Ideal S32x128 .f32) (x3 : FVec Ideal S128 .f32) :
    val_main_v7 (F := Ideal) x0 x2 x3 = embedG x0 x2 x3 := by
  funext i
  rw [val_main_v7_apply, val_main_v4_apply, val_main_v6_apply, val_main_v5_apply]
  unfold embedG
  exact congrArg₂ (fun a b : EReal => a + b)
    (Finset.sum_congr rfl fun k _ => congrArg₂ (fun a b => x0 a * x2 b) (lidx4 i k) (ridx4 i k))
    (congrArg x3 (bidx6 i))

/-! ### The mean aggregation

The reference's gather, product with the relation weights, scatter-add from zero and division by the clamped in-degree
are, operation for operation, the function `meanR` of the stage's input features: the two sides are the same term. -/

/-- The first layer's aggregated term. -/
theorem v27_eq (x0 : FVec Ideal S100000x32 .f32) (x1 : IVec S2x1600000 32) (x2 : FVec Ideal S32x128 .f32)
    (x3 : FVec Ideal S128 .f32) (x4 : FVec Ideal S128x128 .f32) :
    val_main_v27 (F := Ideal) x0 x1 x2 x3 x4
      = meanR (val_main_v7 (F := Ideal) x0 x2 x3) x4 (srcI x1) (dstI x1) (cntB x1) := by
  unfold val_main_v27 val_main_v18 val_main_v15 val_main_v14 val_main_v16 val_main_cst meanR
  rfl

/-- The second layer computes the same three arrays from the edge list under new names. -/
private theorem v39_eq (x1 : IVec S2x1600000 32) : val_main_v39 (F := Ideal) x1 = srcI x1 := rfl
private theorem v43_eq (x1 : IVec S2x1600000 32) : val_main_v43 (F := Ideal) x1 = dstI x1 := rfl
private theorem v52_eq (x1 : IVec S2x1600000 32) : val_main_v52 (F := Ideal) x1 = cntB x1 := rfl

/-- The second layer's aggregated term. -/
theorem v53_eq (x0 : FVec Ideal S100000x32 .f32) (x1 : IVec S2x1600000 32) (x2 : FVec Ideal S32x128 .f32)
    (x3 : FVec Ideal S128 .f32) (x4 x5 : FVec Ideal S128x128 .f32) (x6 : FVec Ideal S128 .f32) (x7 : FVec Ideal S128x128 .f32) :
    val_main_v53 (F := Ideal) x0 x1 x2 x3 x4 x5 x6 x7
      = meanR (val_main_v33 (F := Ideal) x0 x1 x2 x3 x4 x5 x6) x7 (srcI x1) (dstI x1) (cntB x1) := by
  unfold val_main_v53 val_main_v44 val_main_v41 val_main_v40 val_main_v42 val_main_cst_6 meanR
  rw [v39_eq, v43_eq, v52_eq]

/-! ### The convolution stages -/

private theorem lidx28 (i : S100000x128.Idx) (k : Fin 128) : lidx_main_v28 i k = ix2 (i 0) k :=
  funext fun a => Fin.ext (by match a with | ⟨0, _⟩ => rfl | ⟨1, _⟩ => rfl)
private theorem ridx28 (i : S100000x128.Idx) (k : Fin 128) : ridx_main_v28 i k = ix2 k (i 1) :=
  funext fun a => Fin.ext (by match a with | ⟨0, _⟩ => rfl | ⟨1, _⟩ => rfl)
private theorem bidx31 (i : S100000x128.Idx) : idx_main_v30 (idx_main_v31 i) = ix1 (i 1) :=
  funext fun a => Fin.ext (by match a with | ⟨0, _⟩ => rfl)

/-- The first layer: max(0, M + H·W_root + b) over the aggregated term M and the embedding H. -/
theorem v33_eq (x0 : FVec Ideal S100000x32 .f32) (x1 : IVec S2x1600000 32) (x2 : FVec Ideal S32x128 .f32)
    (x3 : FVec Ideal S128 .f32) (x4 x5 : FVec Ideal S128x128 .f32) (x6 : FVec Ideal S128 .f32) :
    val_main_v33 (F := Ideal) x0 x1 x2 x3 x4 x5 x6
      = convR (val_main_v27 (F := Ideal) x0 x1 x2 x3 x4) (val_main_v7 (F := Ideal) x0 x2 x3) x5 x6 := by
  funext i
  rw [val_main_v33_apply, val_main_v32_apply, val_main_v29_apply, val_main_v28_apply, val_main_v31_apply,
    val_main_v30_apply, val_main_call0_v0_apply, val_main_call0_cst_apply]
  unfold convR
  generalize val_main_v27 (F := Ideal) x0 x1 x2 x3 x4 = M
  generalize val_main_v7 (F := Ideal) x0 x2 x3 = H
  exact congrArg₂ (fun a b : EReal => max a b)
    (congrArg₂ (fun a b : EReal => a + b)
      (congrArg₂ (fun a b : EReal => a + b) rfl
        (Finset.sum_congr rfl fun k _ => congrArg₂ (fun a b => H a * x5 b) (lidx28 i k) (ridx28 i k)))
      (congrArg x6 (bidx31 i)))
    rfl

private theorem lidx54 (i : S100000x128.Idx) (k : Fin 128) : lidx_main_v54 i k = ix2 (i 0) k :=
  funext fun a => Fin.ext (by match a with | ⟨0, _⟩ => rfl | ⟨1, _⟩ => rfl)
private theorem ridx54 (i : S100000x128.Idx) (k : Fin 128) : ridx_main_v54 i k = ix2 k (i 1) :=
  funext fun a => Fin.ext (by match a with | ⟨0, _⟩ => rfl | ⟨1, _⟩ => rfl)
private theorem bidx57 (i : S100000x128.Idx) : idx_main_v56 (idx_main_v57 i) = ix1 (i 1) :=
  funext fun a => Fin.ext (by match a with | ⟨0, _⟩ => rfl)

/-- The second layer: the same stage over the second aggregated term and the first layer's output. -/
theorem v59_eq (x0 : FVec Ideal S100000x32 .f32) (x1 : IVec S2x1600000 32) (x2 : FVec Ideal S32x128 .f32)
    (x3 : FVec Ideal S128 .f32) (x4 x5 : FVec Ideal S128x128 .f32) (x6 : FVec Ideal S128 .f32)
    (x7 x8 : FVec Ideal S128x128 .f32) (x9 : FVec Ideal S128 .f32) :
    val_main_v59 (F := Ideal) x0 x1 x2 x3 x4 x5 x6 x7 x8 x9
      = convR (val_main_v53 (F := Ideal) x0 x1 x2 x3 x4 x5 x6 x7) (val_main_v33 (F := Ideal) x0 x1 x2 x3 x4 x5 x6) x8 x9 := by
  funext i
  rw [val_main_v59_apply, val_main_v58_apply, val_main_v55_apply, val_main_v54_apply, val_main_v57_apply,
    val_main_v56_apply, val_main_call1_v0_apply, val_main_call1_cst_apply]
  unfold convR
  generalize val_main_v53 (F := Ideal) x0 x1 x2 x3 x4 x5 x6 x7 = M
  generalize val_main_v33 (F := Ideal) x0 x1 x2 x3 x4 x5 x6 = H
  exact congrArg₂ (fun a b : EReal => max a b)
    (congrArg₂ (fun a b : EReal => a + b)
      (congrArg₂ (fun a b : EReal => a + b) rfl
        (Finset.sum_congr rfl fun k _ => congrArg₂ (fun a b => H a * x8 b) (lidx54 i k) (ridx54 i k)))
      (congrArg x9 (bidx57 i)))
    rfl

/-! ### The output layer and the composition -/

private theorem lidx60 (i : S100000x16.Idx) (k : Fin 128) : lidx_main_v60 i k = ix2 (i 0) k :=
  funext fun a => Fin.ext (by match a with | ⟨0, _⟩ => rfl | ⟨1, _⟩ => rfl)
private theorem ridx60 (i : S100000x16.Idx) (k : Fin 128) : ridx_main_v60 i k = ix2 k (i 1) :=
  funext fun a => Fin.ext (by match a with | ⟨0, _⟩ => rfl | ⟨1, _⟩ => rfl)
private theorem bidx62 (i : S100000x16.Idx) : idx_main_v61 (idx_main_v62 i) = ix1 (i 1) :=
  funext fun a => Fin.ext (by match a with | ⟨0, _⟩ => rfl)

/-- The result: the second layer's output times the output weights, plus the output bias. -/
theorem v63_eq (x0 : FVec Ideal S100000x32 .f32) (x1 : IVec S2x1600000 32) (x2 : FVec Ideal S32x128 .f32)
    (x3 : FVec Ideal S128 .f32) (x4 x5 : FVec Ideal S128x128 .f32) (x6 : FVec Ideal S128 .f32)
    (x7 x8 : FVec Ideal S128x128 .f32) (x9 : FVec Ideal S128 .f32) (x10 : FVec Ideal S128x16 .f32) (x11 : FVec Ideal S16 .f32) :
    val_main_v63 (F := Ideal) x0 x1 x2 x3 x4 x5 x6 x7 x8 x9 x10 x11
      = headR (val_main_v53 (F := Ideal) x0 x1 x2 x3 x4 x5 x6 x7) (val_main_v33 (F := Ideal) x0 x1 x2 x3 x4 x5 x6)
          x8 x9 x10 x11 := by
  funext i
  rw [val_main_v63_apply, val_main_v60_apply, val_main_v62_apply, val_main_v61_apply, v59_eq]
  unfold headR
  generalize convR (val_main_v53 (F := Ideal) x0 x1 x2 x3 x4 x5 x6 x7) (val_main_v33 (F := Ideal) x0 x1 x2 x3 x4 x5 x6) x8 x9 = C
  exact congrArg₂ (fun a b : EReal => a + b)
    (Finset.sum_congr rfl fun k _ => congrArg₂ (fun a b => C a * x10 b) (lidx60 i k) (ridx60 i k))
    (congrArg x11 (bidx62 i))

/-- The reference's result: the three stages composed. -/
theorem ref_value (x0 : FVec Ideal S100000x32 .f32) (x1 : IVec S2x1600000 32) (x2 : FVec Ideal S32x128 .f32) (x3 : FVec Ideal S128 .f32)
    (x4 x5 : FVec Ideal S128x128 .f32) (x6 : FVec Ideal S128 .f32) (x7 x8 : FVec Ideal S128x128 .f32) (x9 : FVec Ideal S128 .f32)
    (x10 : FVec Ideal S128x16 .f32) (x11 : FVec Ideal S16 .f32) :
    val_main_v63 (F := Ideal) x0 x1 x2 x3 x4 x5 x6 x7 x8 x9 x10 x11
      = headR (meanR (convR (meanR (embedG x0 x2 x3) x4 (srcI x1) (dstI x1) (cntB x1)) (embedG x0 x2 x3) x5 x6) x7 (srcI x1) (dstI x1) (cntB x1))
          (convR (meanR (embedG x0 x2 x3) x4 (srcI x1) (dstI x1) (cntB x1)) (embedG x0 x2 x3) x5 x6) x8 x9 x10 x11 := by
  rw [v63_eq, v53_eq, v33_eq, v27_eq, v7_eq]

end Cert.ReferenceIdeal.RefValue

end
-- ==== Proof.LibGatherScatterRows.lean ====
/-
  Row gathers and row scatters read at an index, for any extents (N rows, E start indices, C columns) and any element type.

  A row gather `x[idx]` of an operand [N, C] (or [N]) at start indices [E, 1] reads, at result index (e, q), the operand
  at row `clampRow N idx[e,0]` — the start index read as a signed integer and clamped into [0, N − 1] — and column q.
  A row scatter of updates [E, C] into an operand [N, C] at scatter indices [E, 1] sends update (e, q) to row idx[e,0]
  (read signed, NOT clamped) and column q, and drops it when that row is outside the operand: so if update (e, q) lands at
  index i, then idx[e,0] as an integer IS i's row, and q is i's column.
-/
import Idealize.ShloMosaic.PureOps.ShapeOps
import Idealize.ShloMosaic.Lib.ValueIdx

noncomputable section

namespace Cert.LibGatherScatterRows

open Idealize.ShloMosaic Idealize.ShloMosaic.ValueIdx

/-- The row a start index word selects among N rows: read signed, clamped into [0, N − 1]. -/
def clampRow (N : Nat) (hN : 0 < N) {w : Nat} (v : BitVec w) : Fin N := ⟨min v.toInt.toNat (N - 1), by omega⟩

theorem clampRow_of_toInt {N : Nat} (hN : 0 < N) {w : Nat} (v : BitVec w) (r : Fin N) (h : v.toInt = (r.val : ℤ)) :
    clampRow N hN v = r := by
  apply Fin.ext
  show min v.toInt.toNat (N - 1) = r.val
  have := r.isLt
  rw [h]; simp only [Int.toNat_natCast]; omega

section Gather
variable {α : Type}

/-- The dimension numbers of `x[idx]` along axis 0 of a rank-2 operand: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at (e, q): the operand at the clamped row idx[e,0] and column q. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (clampRow N hN (idx (ix2 e (0 : Fin 1)))) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    unfold GatherDims.start
    rw [dif_neg (show (1 : Fin 2) ∉ (rowGatherDims N E C wf).startIndexMap from
      (by decide : (1 : Fin 2) ∉ ([0] : List (Fin 2))))]
    simp only [Nat.add_zero, Nat.zero_add]
    rfl

/-- The dimension numbers of `x[idx]` of a flat operand: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather at e: the operand at the clamped index idx[e,0]. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of a row scatter: operand [N, C], scatter indices [E, 1], updates [E, C]. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update (e, q) of a row scatter lands at index i, the scatter index idx[e,0], read signed, is i's row. -/
theorem rowScatter_lands {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (i : (⟨2, ![N, C]⟩ : Shape).Idx)
    (h : (rowScatterDims N E C wf).resultIdx? (ix2 e q) idx = some i) :
    (idx (ix2 e (0 : Fin 1))).toInt = ((i 0).val : ℤ) := by
  unfold ScatterDims.resultIdx? at h
  split at h
  · rename_i hin
    have hv : ((rowScatterDims N E C wf).start (ix2 e q) idx 0
        + ((rowScatterDims N E C wf).window (ix2 e q) 0 : ℤ)).toNat = (i 0).val :=
      congrArg Fin.val (congrFun (Option.some.inj h) 0)
    have hs : (rowScatterDims N E C wf).start (ix2 e q) idx 0 = (idx (ix2 e (0 : Fin 1))).toInt := by
      unfold ScatterDims.start
      rw [dif_pos (show (0 : Fin 2) ∈ (rowScatterDims N E C wf).scatterDimsToOperandDims from
        List.mem_singleton.mpr rfl)]
      have hsi : (rowScatterDims N E C wf).siIdx (ix2 e q)
          ⟨List.idxOf (0 : Fin 2) (rowScatterDims N E C wf).scatterDimsToOperandDims,
            List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowScatterDims N E C wf).window (ix2 e q) 0 = 0 := by
      unfold ScatterDims.window
      rw [dif_neg]
      simp [ScatterDims.sKept, Shape.kept]
    have h0 := hin 0
    rw [hs, hw] at h0 hv
    omega
  · exact absurd h (by simp)

end Scatter

end Cert.LibGatherScatterRows

end
-- ==== Proof.ScatterSum.lean ====
/-
  A row scatter-add read at an index, as a finite sum over the scatter indices that select the row.

  Update (e, q) of a row scatter (operand [N, C], scatter indices [E, 1], updates [E, C]) goes to row idx[e,0] — the scatter
  index read as a signed integer, NOT clamped — and column q, and is dropped when that row is outside [0, N). So the updates
  that land on (n, c) are exactly the (e, c) with idx[e,0] = n as integers, and the scatter-add's sum over the update indices
  landing on (n, c) is the sum, over the scatter indices e with idx[e,0] = n, of upd (e, c).
-/
import proofs.«150826_j5841155522636_2_alg».proof.Proof.LibGatherScatterRows
import Idealize.ShloMosaic.PureOps.Ideal
import Idealize.ShloMosaic.Lib.ValueIdx

noncomputable section

namespace Cert.ScatterSum

open Idealize.ShloMosaic Idealize.ShloMosaic.ValueIdx Cert.LibGatherScatterRows
open scoped BigOperators

/-- On the row axis the window of update (e, q) starts at the scatter index idx[e,0], read signed. -/
private theorem start_row {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from
    List.mem_singleton.mpr rfl)]
  have hsi : (rowScatterDims N E C wf).siIdx (ix2 e q)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: the scatter indices name the row axis only. -/
private theorem start_col {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is 0. -/
private theorem window_row {N E C : Nat} (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg]
  simp [ScatterDims.sKept, Shape.kept]

/-- The column axis carries the update's window axis: its window coordinate is q. -/
private theorem window_col {N E C : Nat} (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  have hmem : (1 : Fin 2) ∈ (rowScatterDims N E C wf).sKept :=
    show (1 : Fin 2) ∈ (List.finRange 2).filter (· ∉ ([0] : List (Fin 2))) from by decide
  rw [dif_pos hmem]
  rfl

/-- Update (e, q) of a row scatter lands on (n, c) exactly when the scatter index idx[e,0], read signed, is n and q = c. -/
theorem rowScatter_lands_iff {N E C w : Nat} (wf : ScatterDims.WF ⟨2, ![N, C]⟩ ⟨2, ![E, 1]⟩ ⟨2, ![E, C]⟩ [1] [0] [0] 1)
    (idx : IVec ⟨2, ![E, 1]⟩ w) (e : Fin E) (q : Fin C) (n : Fin N) (c : Fin C) :
    (rowScatterDims N E C wf).resultIdx? (ix2 e q) idx = some (ix2 n c)
      ↔ ((idx (ix2 e (0 : Fin 1))).toInt = ((n.val : ℕ) : ℤ) ∧ q = c) := by
  constructor
  · intro h
    refine ⟨rowScatter_lands wf idx e q (ix2 n c) h, ?_⟩
    unfold ScatterDims.resultIdx? at h
    split at h
    · have hv : ((rowScatterDims N E C wf).start (ix2 e q) idx 1
          + ((rowScatterDims N E C wf).window (ix2 e q) 1 : ℤ)).toNat = c.val :=
        congrArg Fin.val (congrFun (Option.some.inj h) 1)
      rw [start_col, window_col] at hv
      apply Fin.ext
      omega
    · exact absurd h (by simp)
  · rintro ⟨hr, rfl⟩
    have hn := n.isLt
    have hq := q.isLt
    have hall : ∀ a : Fin 2, 0 ≤ (rowScatterDims N E C wf).start (ix2 e q) idx a
          + ((rowScatterDims N E C wf).window (ix2 e q) a : ℤ)
        ∧ (rowScatterDims N E C wf).start (ix2 e q) idx a
          + ((rowScatterDims N E C wf).window (ix2 e q) a : ℤ) < ((⟨2, ![N, C]⟩ : Shape).size a : ℤ) := by
      intro a
      match a with
      | ⟨0, _⟩ =>
        show 0 ≤ (rowScatterDims N E C wf).start (ix2 e q) idx 0 + ((rowScatterDims N E C wf).window (ix2 e q) 0 : ℤ)
          ∧ (rowScatterDims N E C wf).start (ix2 e q) idx 0 + ((rowScatterDims N E C wf).window (ix2 e q) 0 : ℤ) < (N : ℤ)
        rw [start_row, window_row, hr]; omega
      | ⟨1, _⟩ =>
        show 0 ≤ (rowScatterDims N E C wf).start (ix2 e q) idx 1 + ((rowScatterDims N E C wf).window (ix2 e q) 1 : ℤ)
          ∧ (rowScatterDims N E C wf).start (ix2 e q) idx 1 + ((rowScatterDims N E C wf).window (ix2 e q) 1 : ℤ) < (C : ℤ)
        rw [start_col, window_col]; omega
    unfold ScatterDims.resultIdx?
    rw [dif_pos hall]
    congr 1
    funext a
    refine Fin.ext ?_
    match a with
    | ⟨0, _⟩ =>
      show ((rowScatterDims N E C wf).start (ix2 e q) idx 0
        + ((rowScatterDims N E C wf).window (ix2 e q) 0 : ℤ)).toNat = n.val
      rw [start_row, window_row, hr]; omega
    | ⟨1, _⟩ =>
      show ((rowScatterDims N E C wf).start (ix2 e q) idx 1
        + ((rowScatterDims N E C wf).window (ix2 e q) 1 : ℤ)).toNat = q.val
      rw [start_col, window_col]; omega

/-- The row scatter-add at (n, c): the operand's entry plus the sum, over the scatter indices that select row n, of the update's entry in column c. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatterDims N E C wf) x idx upd (ix2 n c)
      = x (ix2 n c) + ∑ e ∈ Finset.univ.filter (fun e : Fin E => (idx (ix2 e (0 : Fin 1))).toInt = ((n.val : ℕ) : ℤ)), upd (ix2 e c) := by
  unfold Ideal.hostScatterAdd
  congr 1
  classical
  rw [Finset.sum_filter, Finset.sum_filter, sum_idx2]
  refine Finset.sum_congr rfl (fun e _ => ?_)
  by_cases he : (idx (ix2 e (0 : Fin 1))).toInt = ((n.val : ℕ) : ℤ)
  · rw [if_pos he]
    rw [Finset.sum_eq_single c]
    · rw [if_pos ((rowScatter_lands_iff wf idx e c n c).mpr ⟨he, rfl⟩)]
    · intro q _ hqc
      rw [if_neg (fun h => hqc ((rowScatter_lands_iff wf idx e q n c).mp h).2)]
    · intro hc; exact absurd (Finset.mem_univ c) hc
  · rw [if_neg he]
    refine Finset.sum_eq_zero (fun q _ => ?_)
    rw [if_neg (fun h => he ((rowScatter_lands_iff wf idx e q n c).mp h).1)]

end Cert.ScatterSum

end
-- ==== Proof.EdgeSets.lean ====
/-
  The edges of the graph as the two programs use them: for a node, the set of edges that end at it; for an edge, the
  feature row its source selects.

  A scatter index is read as a signed integer and an update whose index is outside the node range is dropped, so the edges
  that end at node n are those whose index word, read signed, is n. A gather's start index is read signed and clamped into
  the node range, so edge e reads the row its clamped index names.
-/
import proofs.«150826_j5841155522636_2_alg».proof.Proof.LibGatherScatterRows

noncomputable section

namespace Cert.EdgeSets

open Idealize.ShloMosaic Idealize.ShloMosaic.ValueIdx Cert.LibGatherScatterRows

/-- The edges that end at node n: those whose scatter index, read signed, is n. -/
def lands (dI : IVec ⟨2, ![1600000, 1]⟩ 32) (n : Fin 100000) : Finset (Fin 1600000) :=
  Finset.univ.filter (fun e : Fin 1600000 => (dI (ix2 e (0 : Fin 1))).toInt = ((n.val : ℕ) : ℤ))

/-- The node whose row edge e gathers: its start index read signed and clamped into the node range. -/
def srcRow (sI : IVec ⟨2, ![1600000, 1]⟩ 32) (e : Fin 1600000) : Fin 100000 :=
  clampRow 100000 (by decide) (sI (ix2 e (0 : Fin 1)))

end Cert.EdgeSets

end
-- ==== Proof.MeanKernel.lean ====
/-
  The kernel's mean aggregation read at one entry.

  The aggregation gathers, for every edge, the feature row of the edge's source node, adds the gathered rows of the edges
  that end at a node into that node's row starting from zero, and multiplies the row by the reciprocal of the node's
  in-degree clamped below at one. Read at (n, k): a scatter-add at (n, k) is the operand's entry plus the sum, over the
  edges whose end index is n, of the update's entry in column k; the update at (e, k) is the gathered row of edge e at
  column k, which is the feature array at the row the clamped source index of e names; the operand is zero everywhere; and
  the scale at (n, k) is the column of reciprocals at row n, which is one divided by the larger of the in-degree of n and one.
-/
import proofs.«150826_j5841155522636_2_alg».proof.Proof.KernelHostTerms
import proofs.«150826_j5841155522636_2_alg».proof.Proof.ScatterSum
import proofs.«150826_j5841155522636_2_alg».proof.Proof.EdgeSets
import Idealize.ShloMosaic.Lib.ValueIdx
import Idealize.ShloMosaic.Lib.Pipeline.Value

noncomputable section

namespace Cert.KernelIdeal.MeanKernel

open Idealize.ShloMosaic Idealize.ShloMosaic.ValueIdx Cert.KernelIdeal Cert.KernelIdeal.Gen Cert.KernelIdeal.Chain Cert.LibGatherScatterRows Cert.ScatterSum Cert.EdgeSets
open scoped BigOperators

/-- The printed scatter record is the row scatter's: operand [100000, 128], indices [1600000, 1], updates [1600000, 128]. -/
theorem scatter_eq : scatter_S100000x128_S1600000x1_S1600000x128_1_0_0_1
    = rowScatterDims 100000 1600000 128 scatter_S100000x128_S1600000x1_S1600000x128_1_0_0_1.wf := rfl

/-- The printed gather record is the row gather's: operand [100000, 128], start indices [1600000, 1], result [1600000, 128]. -/
theorem gather_eq : gather_S100000x128_S1600000x1_S1600000x128_1_0_n_n_0_1_1128
    = rowGatherDims 100000 1600000 128 gather_S100000x128_S1600000x1_S1600000x128_1_0_n_n_0_1_1128.wf := rfl

/-- The zero array [100000, 128] reads the zero word's value at every index. -/
theorem zero_apply (i : S100000x128.Idx) :
    broadcastInDim S100000x128 ![] bcast_S_S100000x128 (constant (F := Ideal) S_ .f32 0x00000000#32) i
      = Ideal.ofBits .f32 0x00000000#32 :=
  (broadcastInDim_apply _ bcast_S_S100000x128 (constant (F := Ideal) S_ .f32 0x00000000#32) i ix0 (fun a => a.elim0)).trans
    (constant_apply _ _)

/-- The array [100000] of ones reads the one word's value at every index. -/
theorem one_apply (i : S100000.Idx) :
    broadcastInDim S100000 ![] bcast_S_S100000 (constant (F := Ideal) S_ .f32 0x3F800000#32) i
      = Ideal.ofBits .f32 0x3F800000#32 :=
  (broadcastInDim_apply _ bcast_S_S100000 (constant (F := Ideal) S_ .f32 0x3F800000#32) i ix0 (fun a => a.elim0)).trans
    (constant_apply _ _)

/-- The update at (e, k): the feature array at the row edge e's clamped source index names, column k. -/
theorem upd_apply (Hb : FVec Ideal S100000x128 .bf16) (x1 : IVec S2x1600000 32) (e : Fin 1600000) (k : Fin 128) :
    extf (F := Ideal) .f32 (Host.gather gather_S100000x128_S1600000x1_S1600000x128_1_0_n_n_0_1_1128 Hb (srcIdx x1)) bitsLt_bf16_f32 (ix2 e k)
      = Hb (ix2 (srcRow (srcIdx x1) e) k) := by
  show Host.gather gather_S100000x128_S1600000x1_S1600000x128_1_0_n_n_0_1_1128 Hb (srcIdx x1) (ix2 e k) = _
  rw [gather_eq]
  exact rowGather_apply (by decide) _ Hb (srcIdx x1) e k

/-- The host scatter-add is, at the extended reals, the exact sum of the updates landing on each entry. -/
theorem scatterAdd_ideal {s si su : Shape} {φ : FTy} {w : Nat} (d : ScatterDims s si su) (x : FVec Ideal s φ) (idx : IVec si w) (upd : FVec Ideal su φ) :
    Host.scatterAdd (F := Ideal) d x idx upd = Ideal.hostScatterAdd d x idx upd := rfl

/-- The sum of the gathered rows at (n, k): zero plus the features, in column k, of the source rows of the edges that end at n. -/
theorem sum_apply (Hb : FVec Ideal S100000x128 .bf16) (x1 : IVec S2x1600000 32) (n : Fin 100000) (k : Fin 128) :
    Host.scatterAdd (F := Ideal) scatter_S100000x128_S1600000x1_S1600000x128_1_0_0_1
        (broadcastInDim S100000x128 ![] bcast_S_S100000x128 (constant (F := Ideal) S_ .f32 0x00000000#32)) (dstIdx x1)
        (extf (F := Ideal) .f32 (Host.gather gather_S100000x128_S1600000x1_S1600000x128_1_0_n_n_0_1_1128 Hb (srcIdx x1)) bitsLt_bf16_f32)
        (ix2 n k)
      = Ideal.ofBits .f32 0x00000000#32 + ∑ e ∈ lands (dstIdx x1) n, Hb (ix2 (srcRow (srcIdx x1) e) k) := by
  rw [scatterAdd_ideal, scatter_eq]
  refine (rowScatterAdd_apply _ _ (dstIdx x1) _ n k).trans ?_
  refine congrArg₂ (· + ·) (zero_apply _) ?_
  unfold lands
  exact Finset.sum_congr rfl fun e _ => upd_apply Hb x1 e k

/-- The scale at (n, k) is the column of reciprocals at row n. -/
theorem scale_apply (x1 : IVec S2x1600000 32) (n : Fin 100000) (k : Fin 128) :
    broadcastInDim S100000x128 ![0, 1] bcast_S100000x1_S100000x128_0_1 (invCol x1) (ix2 n k) = invCol x1 (ix2 n (0 : Fin 1)) :=
  broadcastInDim_apply _ bcast_S100000x1_S100000x128_0_1 (invCol x1) (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])

/-- A host quotient of two arrays reads, at an index, the quotient of the entries. -/
theorem hostDivf_apply (a b : FVec Ideal S100000 .f32) (i : S100000.Idx) :
    Host.divf (F := Ideal) a b i = Ideal.div (a i) (b i) := rfl

/-- The column of reciprocals at row n: one divided by the larger of the in-degree of n and one. -/
theorem invCol_apply (x1 : IVec S2x1600000 32) (n : Fin 100000) :
    invCol x1 (ix2 n (0 : Fin 1))
      = Ideal.div (Ideal.ofBits .f32 0x3F800000#32) (max (cntV x1 (ix1 n)) (Ideal.ofBits .f32 0x3F800000#32)) := by
  unfold invCol
  refine (shapeCast_apply _ shapeCasts_S100000_S100000x1 (ix2 n (0 : Fin 1)) (ix1 n) ?_).trans ?_
  · rw [Shape.rowMajor_val_two, Shape.rowMajor_val_one]
    show n.val = n.val * 1 + 0
    omega
  · refine (hostDivf_apply _ _ _).trans ?_
    exact congrArg₂ Ideal.div (one_apply _) ((maximumf_apply _ _ _).trans (congrArg (max _) (one_apply _)))

/-- The kernel's aggregated feature (n, k): zero plus the features, in column k, of the source rows of the edges that end at n, times the reciprocal of the in-degree clamped below at one. -/
theorem aggK_apply (Hb : FVec Ideal S100000x128 .bf16) (x1 : IVec S2x1600000 32) (n : Fin 100000) (k : Fin 128) :
    aggK Hb x1 (ix2 n k)
      = (Ideal.ofBits .f32 0x00000000#32 + ∑ e ∈ lands (dstIdx x1) n, Hb (ix2 (srcRow (srcIdx x1) e) k))
          * Ideal.div (Ideal.ofBits .f32 0x3F800000#32) (max (cntV x1 (ix1 n)) (Ideal.ofBits .f32 0x3F800000#32)) := by
  unfold aggK
  refine (mulf_apply _ _ _).trans ?_
  exact congrArg₂ (· * ·) (sum_apply Hb x1 n k) ((scale_apply x1 n k).trans (invCol_apply x1 n))

end Cert.KernelIdeal.MeanKernel

end
-- ==== Proof.MeanRef.lean ====
/-
  The reference's mean aggregation read at one entry.

  At node n and column c the reference's mean is a quotient. Its numerator starts from zero and adds, for every edge
  that ends at n, entry c of the product of the edge's gathered source row with the relation weights, that is the sum over
  k of H(src e, k)·W(k, c); its denominator is the clamped in-degree the caller supplies. The scatter's sum over all
  update entries landing on (n, c) is the sum over the edges whose scatter index is n; the product's entry is the sum
  over the one contracted axis; the gathered row is the source's row, its start index clamped into the node range.
-/
import proofs.«150826_j5841155522636_2_alg».proof.Proof.SpecRef
import proofs.«150826_j5841155522636_2_alg».proof.Proof.ScatterSum
import proofs.«150826_j5841155522636_2_alg».proof.Proof.EdgeSets
import Idealize.ShloMosaic.Lib.ValueIdx
import Idealize.ShloMosaic.Lib.Pipeline.Value
import Idealize.ShloMosaic.PureOps.Ideal.Laws

noncomputable section

open scoped BigOperators

namespace Cert.ReferenceIdeal.MeanRef

open Idealize.ShloMosaic Idealize.ShloMosaic.ValueIdx Cert.ReferenceIdeal Cert.SpecRef Cert.LibGatherScatterRows Cert.ScatterSum Cert.EdgeSets

variable [Cert.ReferenceIdeal.Facts₀]

/-- The printed scatter record is the row scatter's: operand [100000, 128], indices [1600000, 1], updates [1600000, 128]. -/
theorem scatter_eq : scatter_S100000x128_S1600000x1_S1600000x128_1_0_0_1
    = rowScatterDims 100000 1600000 128 Facts₀.scatter_S100000x128_S1600000x1_S1600000x128_1_0_0_1_wf := rfl

/-- The printed gather record is the row gather's. -/
theorem gather_eq : gather_S100000x128_S1600000x1_S1600000x128_1_0_n_n_0_1_1128
    = rowGatherDims 100000 1600000 128 Facts₀.gather_S100000x128_S1600000x1_S1600000x128_1_0_n_n_0_1_1128_wf := rfl

/-! ## The operand coordinates of the edge product's dimension record -/

theorem dot_l0 (i : S1600000x128.Idx) (q : dot_S1600000x128_S128x128_S1600000x128_1_0_0_1_n_n.contr.Idx) :
    (dot_S1600000x128_S128x128_S1600000x128_1_0_0_1_n_n.lhsIdx i q 0).val = (i 0).val := by
  unfold DotDims.lhsIdx
  rw [dif_neg (show ¬(0 : Fin S1600000x128.rank) ∈ dot_S1600000x128_S128x128_S1600000x128_1_0_0_1_n_n.lhsBatch from List.not_mem_nil),
    dif_pos (show (0 : Fin S1600000x128.rank) ∈ dot_S1600000x128_S128x128_S1600000x128_1_0_0_1_n_n.lhsNonContracting from List.mem_singleton.mpr rfl)]
  rfl
theorem dot_l1 (i : S1600000x128.Idx) (q : dot_S1600000x128_S128x128_S1600000x128_1_0_0_1_n_n.contr.Idx) (h0 : 0 < dot_S1600000x128_S128x128_S1600000x128_1_0_0_1_n_n.contr.rank) :
    (dot_S1600000x128_S128x128_S1600000x128_1_0_0_1_n_n.lhsIdx i q 1).val = (q ⟨0, h0⟩).val :=
  dot_S1600000x128_S128x128_S1600000x128_1_0_0_1_n_n.lhsIdx_val_of_single rfl i q
theorem dot_r0 (i : S1600000x128.Idx) (q : dot_S1600000x128_S128x128_S1600000x128_1_0_0_1_n_n.contr.Idx) (h0 : 0 < dot_S1600000x128_S128x128_S1600000x128_1_0_0_1_n_n.contr.rank) :
    (dot_S1600000x128_S128x128_S1600000x128_1_0_0_1_n_n.rhsIdx i q 0).val = (q ⟨0, h0⟩).val :=
  dot_S1600000x128_S128x128_S1600000x128_1_0_0_1_n_n.rhsIdx_val_of_single rfl i q
theorem dot_r1 (i : S1600000x128.Idx) (q : dot_S1600000x128_S128x128_S1600000x128_1_0_0_1_n_n.contr.Idx) :
    (dot_S1600000x128_S128x128_S1600000x128_1_0_0_1_n_n.rhsIdx i q 1).val = (i 1).val := by
  unfold DotDims.rhsIdx
  rw [dif_neg (show ¬(1 : Fin S128x128.rank) ∈ dot_S1600000x128_S128x128_S1600000x128_1_0_0_1_n_n.rhsBatch from List.not_mem_nil),
    dif_pos (show (1 : Fin S128x128.rank) ∈ dot_S1600000x128_S128x128_S1600000x128_1_0_0_1_n_n.rhsNonContracting from List.mem_singleton.mpr rfl)]
  rfl

/-- The scatter's zero operand: a scalar zero repeated over the whole array reads the zero word at every index. -/
theorem zero_apply (i : S100000x128.Idx) :
    broadcastInDim S100000x128 ![] Facts₀.bcast_S_S100000x128 (constant (F := Ideal) S_ .f32 0x00000000#32) i
      = Ideal.ofBits .f32 0x00000000#32 :=
  (broadcastInDim_apply _ Facts₀.bcast_S_S100000x128 _ i ix0 (fun a => a.elim0)).trans (constant_apply _ _)

/-- Edge e's product at column c: the sum over k of the source row's entry k times the weights' entry (k, c). -/
theorem edge_prod (H : FVec Ideal S100000x128 .f32) (W : FVec Ideal S128x128 .f32) (sI : IVec S1600000x1 32)
    (e : Fin 1600000) (c : Fin 128) :
    Host.dotGeneral (F := Ideal) dot_S1600000x128_S128x128_S1600000x128_1_0_0_1_n_n none
        (Host.gather gather_S100000x128_S1600000x1_S1600000x128_1_0_n_n_0_1_1128 H sI) W (ix2 e c)
      = ∑ k : Fin 128, H (ix2 (srcRow sI e) k) * W (ix2 k c) := by
  simp only [Host.dotGeneral]
  rw [Ideal.dotGeneral_apply, ← Equiv.sum_comp (ValueIdx.contrEquiv1 dot_S1600000x128_S128x128_S1600000x128_1_0_0_1_n_n 128 rfl rfl).symm]
  refine Finset.sum_congr rfl fun k _ => ?_
  have hk := ValueIdx.contrEquiv1_symm_val dot_S1600000x128_S128x128_S1600000x128_1_0_0_1_n_n 128 rfl rfl k
  have el : dot_S1600000x128_S128x128_S1600000x128_1_0_0_1_n_n.lhsIdx (ix2 e c) ((ValueIdx.contrEquiv1 dot_S1600000x128_S128x128_S1600000x128_1_0_0_1_n_n 128 rfl rfl).symm k) = ix2 e k := funext fun a => Fin.ext (by
    match a with
    | ⟨0, _⟩ => exact dot_l0 _ _
    | ⟨1, _⟩ => exact (dot_l1 _ _ _).trans hk)
  have er : dot_S1600000x128_S128x128_S1600000x128_1_0_0_1_n_n.rhsIdx (ix2 e c) ((ValueIdx.contrEquiv1 dot_S1600000x128_S128x128_S1600000x128_1_0_0_1_n_n 128 rfl rfl).symm k) = ix2 k c := funext fun a => Fin.ext (by
    match a with
    | ⟨0, _⟩ => exact (dot_r0 _ _ _).trans hk
    | ⟨1, _⟩ => exact dot_r1 _ _)
  rw [el, er]
  refine congrArg (· * W (ix2 k c)) ?_
  show Host.gather (rowGatherDims 100000 1600000 128 Facts₀.gather_S100000x128_S1600000x1_S1600000x128_1_0_n_n_0_1_1128_wf) H sI (ix2 e k) = _
  exact rowGather_apply (by decide) _ H sI e k

/-- The printed row scatter-add at (n, c), for any operand and any updates: the operand's entry plus the sum, over the
    edges that end at n, of the update's entry in column c. -/
theorem scatter_apply (x : FVec Ideal S100000x128 .f32) (dI : IVec S1600000x1 32) (upd : FVec Ideal S1600000x128 .f32)
    (n : Fin 100000) (c : Fin 128) :
    Host.scatterAdd (F := Ideal) scatter_S100000x128_S1600000x1_S1600000x128_1_0_0_1 x dI upd (ix2 n c)
      = x (ix2 n c) + ∑ e ∈ lands dI n, upd (ix2 e c) := by
  unfold Host.scatterAdd lands
  rw [Ideal.hostScatterAdd_def, scatter_eq]
  exact rowScatterAdd_apply _ x dI upd n c

/-- The reference's mean at (n, c): zero plus, over the edges that end at n, the product of the edge's source row with column c of the weights; divided by the clamped in-degree the caller supplies. -/
theorem meanR_apply (H : FVec Ideal S100000x128 .f32) (W : FVec Ideal S128x128 .f32) (sI dI : IVec S1600000x1 32)
    (cB : FVec Ideal S100000x128 .f32) (n : Fin 100000) (c : Fin 128) :
    meanR H W sI dI cB (ix2 n c)
      = Ideal.div (Ideal.ofBits .f32 0x00000000#32 + ∑ e ∈ lands dI n, ∑ k : Fin 128, H (ix2 (srcRow sI e) k) * W (ix2 k c)) (cB (ix2 n c)) := by
  unfold meanR Host.divf
  rw [Ideal.hostDivf_def, scatter_apply, zero_apply]
  refine congrArg (fun z => Ideal.div z (cB (ix2 n c))) ?_
  refine congrArg₂ (· + ·) rfl (Finset.sum_congr rfl fun e _ => ?_)
  exact edge_prod H W sI e c

end Cert.ReferenceIdeal.MeanRef

end
-- ==== Proof.IdealReal.lean ====
import Idealize.ShloMosaic.PureOps.Ideal

/-!
# Real-valued entries of the extended reals, and the mean-aggregation law

On the extended reals multiplication does not distribute over addition at the infinities, so
the algebraic law relating "sum, scale by the reciprocal count, then multiply by the weights"
to "multiply by the weights, sum, then divide by the count" is stated for entries that are real
numbers.  The proof picks real witnesses for every entry, pushes the coercion `ℝ → EReal`
outward through sums and products, and finishes in the reals, where it is the interchange of two
finite sums together with commutativity of multiplication.
-/

noncomputable section

namespace Cert.IdealReal

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

/-- The reals are closed under addition inside the extended reals. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The reals are closed under multiplication inside the extended reals. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion is monotone, so it carries the real maximum to the extended-real maximum. -/
private theorem coe_max (a b : ℝ) : ((Max.max a b : ℝ) : EReal) = Max.max (a : EReal) (b : EReal) :=
  EReal.coe_strictMono.monotone.map_max

/-- The maximum of two reals is the real maximum. -/
theorem IsReal.max {x y : EReal} (hx : IsReal x) (hy : IsReal y) : IsReal (max x y) := by
  obtain ⟨a, rfl⟩ := hx
  obtain ⟨b, rfl⟩ := hy
  exact ⟨Max.max a b, (coe_max a b).symm⟩

/-- A finite sum of reals is a real: induction on the index set. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A real number that is at least one (an in-degree clamped below by one). -/
def IsCount (x : EReal) : Prop := ∃ r : ℝ, 1 ≤ r ∧ x = (r : EReal)

theorem IsCount.isReal {x : EReal} (h : IsCount x) : IsReal x := by
  obtain ⟨r, _, rfl⟩ := h
  exact ⟨r, rfl⟩

/-- Clamping a real below by one gives a count. -/
theorem isCount_max_one {x : EReal} (hx : IsReal x) : IsCount (max x 1) := by
  obtain ⟨a, rfl⟩ := hx
  refine ⟨Max.max a 1, le_max_right a 1, ?_⟩
  rw [coe_max, EReal.coe_one]

/-- A real divided by a count is a real: the count is nonzero, so the quotient is the product
    with the real reciprocal. -/
theorem IsReal.div_count {x m : EReal} (hx : IsReal x) (hm : IsCount m) : IsReal (Ideal.div x m) := by
  obtain ⟨a, rfl⟩ := hx
  obtain ⟨r, hr, rfl⟩ := hm
  have hne : r ≠ 0 := by linarith
  rw [Ideal.div_coe hne]
  exact ⟨a * (1 / r), (EReal.coe_mul a (1 / r)).symm⟩

/-- The coercion of a finite real sum is the sum of the coercions. -/
private theorem coe_sum {α : Type*} (s : Finset α) (f : α → ℝ) :
    ∑ i ∈ s, (f i : EReal) = ((∑ i ∈ s, f i : ℝ) : EReal) := by
  classical
  induction s using Finset.induction_on with
  | empty => simp
  | insert a s ha ih =>
    rw [Finset.sum_insert ha, Finset.sum_insert ha, ih, EReal.coe_add]

/-- The law in the reals: interchange the two sums, then move the scalar across each product. -/
private theorem mean_then_matmul_real {ι κ : Type*} [Fintype κ] (S : Finset ι) (g : ι → κ → ℝ)
    (w : κ → ℝ) (c : ℝ) :
    ∑ k, ((∑ e ∈ S, g e k) * c) * w k = (∑ e ∈ S, ∑ k, g e k * w k) * c := by
  rw [Finset.sum_comm, Finset.sum_mul]
  refine Finset.sum_congr rfl fun k _ => ?_
  rw [← Finset.sum_mul]
  ring

/-- Mean aggregation commutes with the weight matrix, on real entries. -/
theorem mean_then_matmul_eq {ι κ : Type*} [Fintype κ] (S : Finset ι) (g : ι → κ → EReal) (w : κ → EReal) (mx : EReal)
    (hg : ∀ e k, IsReal (g e k)) (hw : ∀ k, IsReal (w k)) (hm : IsCount mx) :
    ∑ k, ((0 + ∑ e ∈ S, g e k) * Ideal.div 1 mx) * w k = Ideal.div (0 + ∑ e ∈ S, ∑ k, g e k * w k) mx := by
  choose g' hg' using hg
  choose w' hw' using hw
  obtain ⟨m, hm1, rfl⟩ := hm
  have hne : m ≠ 0 := by linarith
  have hgf : g = fun e k => ((g' e k : ℝ) : EReal) := funext fun e => funext fun k => hg' e k
  have hwf : w = fun k => ((w' k : ℝ) : EReal) := funext hw'
  subst hgf hwf
  simp only [Ideal.div_coe hne, zero_add, one_mul, ← EReal.coe_mul, coe_sum]
  exact congrArg _ (mean_then_matmul_real S g' w' (1 / m))

end Cert.IdealReal

end
-- ==== Proof.StageReal.lean ====
/-
  The stage functions keep real entries real, and the two float words the programs spell.

  A stage's entry is built from entries of its arguments by finite sums, products, one addition of a bias entry and,
  for a convolution stage, a maximum with zero. The real numbers are closed under each of these inside the extended
  reals, so when every entry of every argument is a real number so is every entry of the stage's result. The word
  0x00000000 denotes the real number 0 and the word 0x3F800000 the real number 1.
-/
import proofs.«150826_j5841155522636_2_alg».proof.Proof.Spec
import proofs.«150826_j5841155522636_2_alg».proof.Proof.IdealReal
import Idealize.ShloMosaic.PureOps.Ideal
import Idealize.ShloMosaic.PureOps.Ideal.Laws
import Idealize.ShloMosaic.Lib.IdealHost
import Idealize.ShloMosaic.Lib.ValueIdx

noncomputable section

namespace Cert.StageReal

open Idealize.ShloMosaic Idealize.ShloMosaic.ValueIdx Cert.Spec Cert.IdealReal
open scoped BigOperators

/-- The word 0x00000000 denotes zero. -/
theorem ofBits_zero : Ideal.ofBits .f32 0x00000000#32 = (0 : EReal) := Ideal.ofBits_zero_f32

/-- The word 0x3F800000 denotes one. -/
theorem ofBits_one : Ideal.ofBits .f32 0x3F800000#32 = (1 : EReal) := Ideal.ofBits_one_f32

/-- The embedding of real features by real weights and a real bias is real. -/
theorem embedG_real (x : Arr 100000 32) (W : Arr 32 128) (b : Row 128) (hx : ∀ i, IsReal (x i)) (hW : ∀ i, IsReal (W i))
    (hb : ∀ i, IsReal (b i)) : ∀ i, IsReal (embedG x W b i) := by
  intro i
  unfold embedG
  exact (isReal_sum _ _ fun k _ => (hx _).mul (hW _)).add (hb _)

/-- The product of real aggregated features with real relation weights is real. -/
theorem relProd_real (A : Arr 100000 128) (Wrel : Arr 128 128) (hA : ∀ i, IsReal (A i)) (hW : ∀ i, IsReal (Wrel i)) :
    ∀ i, IsReal (relProd A Wrel i) := by
  intro i
  unfold relProd
  exact isReal_sum _ _ fun k _ => (hA _).mul (hW _)

/-- A convolution stage over a real aggregated term, real features, real weights and a real bias is real. -/
theorem convR_real (M H : Arr 100000 128) (Wroot : Arr 128 128) (b : Row 128) (hM : ∀ i, IsReal (M i)) (hH : ∀ i, IsReal (H i))
    (hW : ∀ i, IsReal (Wroot i)) (hb : ∀ i, IsReal (b i)) : ∀ i, IsReal (convR M H Wroot b i) := by
  intro i
  unfold convR
  have h0 : IsReal (Ideal.ofBits .f32 0x00000000#32) := by rw [ofBits_zero]; exact isReal_zero
  exact (((hM i).add (isReal_sum _ _ fun k _ => (hH _).mul (hW _))).add (hb _)).max h0

end Cert.StageReal

end
-- ==== Proof.CountRef.lean ====
/-
  The reference's clamped in-degree, read at an entry.

  The reference counts the edges ending at every node by adding a one for every edge into a row of zeros, clamps the
  count below by one, and repeats it along the feature axis. Read at the entry (n, c) the repeated array is therefore
  the maximum of node n's count and one. The count is the zero it starts from plus a finite sum of ones, a real number;
  so the clamped count is a real number at least one.
-/
import proofs.«150826_j5841155522636_2_alg».proof.Proof.RefValue
import proofs.«150826_j5841155522636_2_alg».proof.Proof.StageReal
import proofs.«150826_j5841155522636_2_alg».proof.Proof.IdealReal

noncomputable section

namespace Cert.ReferenceIdeal.CountRef

open Idealize.ShloMosaic Idealize.ShloMosaic.ValueIdx Cert.ReferenceIdeal Cert.ReferenceIdeal.Read Cert.Spec Cert.SpecRef
open Cert.IdealReal Cert.StageReal
open scoped BigOperators

variable [Cert.ReferenceIdeal.Facts]

/-- The repeated array at (n, c) reads the clamped count at n: the two broadcasts compose to the row index. -/
private theorem idx_row (n : Fin 100000) (c : Fin 128) : idx_main_v25 (idx_main_v26 (ix2 n c)) = ix1 n :=
  funext fun a => Fin.ext (by match a with | ⟨0, _⟩ => rfl)

/-- The clamped in-degree at the entry (n, c) is the maximum of node n's in-degree and one. -/
theorem cntB_apply (x1 : IVec S2x1600000 32) (n : Fin 100000) (c : Fin 128) :
    Cert.ReferenceIdeal.RefValue.cntB x1 (ix2 n c) = max (val_main_v22 (F := Ideal) x1 (ix1 n)) (Ideal.ofBits .f32 0x3F800000#32) := by
  show val_main_v26 (F := Ideal) x1 (ix2 n c) = _
  rw [val_main_v26_apply, val_main_v25_apply, val_main_v24_apply, val_main_v23_apply, val_main_cst_3_apply, idx_row]
  generalize val_main_v22 (F := Ideal) x1 (ix1 n) = d
  rw [Ideal.maximumf_def, Ideal.ofBits_def]

/-- An accumulating scatter of real updates into a real array is real at every entry: the entry plus a finite sum of
    the updates that land on it. Which updates land there plays no part. -/
private theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ fun j _ => hu j)

/-- The row of zeros the count starts from. -/
private theorem v20_real (i : S100000.Idx) : IsReal (val_main_v20 (F := Ideal) i) := by
  rw [val_main_v20_apply, val_main_cst_2_apply, Ideal.ofBits_def, ofBits_zero]
  exact isReal_zero

/-- The ones added, one for every edge. -/
private theorem v19_real (j : S1600000.Idx) : IsReal (val_main_v19 (F := Ideal) j) := by
  rw [val_main_v19_apply, val_main_cst_1_apply, Ideal.ofBits_def, ofBits_one]
  exact isReal_one

/-- The in-degree is a real number: zero plus a finite sum of ones. -/
theorem v22_real (x1 : IVec S2x1600000 32) (i : S100000.Idx) : IsReal (val_main_v22 (F := Ideal) x1 i) := by
  unfold val_main_v22
  exact scatterAdd_real _ _ _ _ v20_real v19_real i

/-- The clamped in-degree is a real number at least one. -/
theorem cntB_isCount (x1 : IVec S2x1600000 32) (n : Fin 100000) (c : Fin 128) :
    IsCount (Cert.ReferenceIdeal.RefValue.cntB x1 (ix2 n c)) := by
  rw [cntB_apply, ofBits_one]
  have h := v22_real x1 (ix1 n)
  generalize val_main_v22 (F := Ideal) x1 (ix1 n) = d at h ⊢
  exact isCount_max_one h

end Cert.ReferenceIdeal.CountRef

end
-- ==== Proof.Bridge.lean ====
/-
  The kernel's order of operations and the reference's give the same network.

  The kernel adds the neighbours' feature rows, scales the sum by the reciprocal in-degree and only then multiplies by the
  relation weights; the reference multiplies each neighbour's row by the weights, adds, and divides by the in-degree. Both
  read the same edges — the same gather indices, the same scatter indices, the same in-degree — so at node n and column c
  the two are the two sides of one identity between finite sums of real numbers: the product with the weights moves across
  the sum over the edges that end at n, and the division by the in-degree is the product with its reciprocal. The identity
  needs every entry to be a real number (it fails at infinities), which the embedding, the convolution stage and the mean
  itself preserve from real inputs. With it the first convolution's features agree, hence the second's, hence the result.
-/
import proofs.«150826_j5841155522636_2_alg».proof.Proof.MeanKernel
import proofs.«150826_j5841155522636_2_alg».proof.Proof.MeanRef
import proofs.«150826_j5841155522636_2_alg».proof.Proof.CountRef
import proofs.«150826_j5841155522636_2_alg».proof.Proof.StageReal
import proofs.«150826_j5841155522636_2_alg».proof.Proof.IdealReal
import proofs.«150826_j5841155522636_2_alg».proof.Proof.RefValue
import proofs.«150826_j5841155522636_2_alg».proof.Proof.KernelHostTerms
import proofs.«150826_j5841155522636_2_alg».proof.Proof.Spec

noncomputable section

open scoped BigOperators

namespace Cert.Bridge

open Idealize.ShloMosaic Idealize.ShloMosaic.ValueIdx
open Cert.Spec Cert.SpecRef Cert.IdealReal Cert.StageReal Cert.EdgeSets
open Cert.KernelIdeal.Chain (aggK srcIdx dstIdx cntV)
open Cert.ReferenceIdeal.RefValue (srcI dstI cntB)

/-- An edge list: two rows of node indices. -/
abbrev Edges : Type := IVec ⟨2, ![2, 1600000]⟩ 32

/-! ## The two programs read the same edges -/

theorem srcIdx_eq (x1 : Edges) : srcIdx x1 = srcI x1 := rfl
theorem dstIdx_eq (x1 : Edges) : dstIdx x1 = dstI x1 := rfl
theorem cnt_eq (x1 : Edges) : cntV x1 = Cert.ReferenceIdeal.Read.val_main_v22 (F := Ideal) x1 := rfl

/-! ## The mean aggregation, either way round -/

/-- The kernel's aggregated features times the relation weights are the reference's mean of the transformed messages,
    when the features and the weights are real numbers. -/
theorem relProd_agg (H : Arr 100000 128) (W : Arr 128 128) (x1 : Edges) (hH : ∀ i, IsReal (H i)) (hW : ∀ i, IsReal (W i)) :
    relProd (aggK H x1) W = meanR H W (srcI x1) (dstI x1) (cntB x1) := by
  funext i
  obtain ⟨n, c, rfl⟩ : ∃ (n : Fin 100000) (c : Fin 128), i = ix2 n c := ⟨i 0, i 1, eq_ix2 i⟩
  rw [Cert.ReferenceIdeal.MeanRef.meanR_apply, Cert.ReferenceIdeal.CountRef.cntB_apply]
  show ∑ k : Fin 128, aggK H x1 (ix2 n k) * W (ix2 k c) = _
  simp only [Cert.KernelIdeal.MeanKernel.aggK_apply]
  rw [srcIdx_eq, dstIdx_eq, cnt_eq, ofBits_zero, ofBits_one]
  exact mean_then_matmul_eq (lands (dstI x1) n) (fun e k => H (ix2 (srcRow (srcI x1) e) k)) (fun k => W (ix2 k c)) _
    (fun e k => hH _) (fun k => hW _) (isCount_max_one (Cert.ReferenceIdeal.CountRef.v22_real x1 (ix1 n)))

/-- The reference's mean of real features against real weights is real. -/
theorem meanR_real (H : Arr 100000 128) (W : Arr 128 128) (x1 : Edges) (hH : ∀ i, IsReal (H i)) (hW : ∀ i, IsReal (W i)) :
    ∀ i, IsReal (meanR H W (srcI x1) (dstI x1) (cntB x1) i) := by
  intro i
  obtain ⟨n, c, rfl⟩ : ∃ (n : Fin 100000) (c : Fin 128), i = ix2 n c := ⟨i 0, i 1, eq_ix2 i⟩
  rw [Cert.ReferenceIdeal.MeanRef.meanR_apply, ofBits_zero]
  exact IsReal.div_count
    (isReal_zero.add (isReal_sum _ _ fun e _ => isReal_sum _ _ fun k _ => (hH _).mul (hW _)))
    (Cert.ReferenceIdeal.CountRef.cntB_isCount x1 n c)

/-! ## The whole network -/

/-- From real inputs the kernel's composition of its stages is the reference's. -/
theorem out_eq (x0 : Arr 100000 32) (x1 : Edges) (x2 : Arr 32 128) (x3 : Row 128) (x4 x5 : Arr 128 128) (x6 : Row 128)
    (x7 x8 : Arr 128 128) (x9 : Row 128) (x10 : Arr 128 16) (x11 : Row 16)
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) :
    headG (aggK (convG (aggK (embedG x0 x2 x3) x1) (embedG x0 x2 x3) x4 x5 x6) x1)
        (convG (aggK (embedG x0 x2 x3) x1) (embedG x0 x2 x3) x4 x5 x6) x7 x8 x9 x10 x11
      = headR (meanR (convR (meanR (embedG x0 x2 x3) x4 (srcI x1) (dstI x1) (cntB x1)) (embedG x0 x2 x3) x5 x6) x7 (srcI x1) (dstI x1) (cntB x1))
          (convR (meanR (embedG x0 x2 x3) x4 (srcI x1) (dstI x1) (cntB x1)) (embedG x0 x2 x3) x5 x6) x8 x9 x10 x11 := by
  have e0 : ∀ i, IsReal (embedG x0 x2 x3 i) := embedG_real x0 x2 x3 h0 h2 h3
  have k1 : convG (aggK (embedG x0 x2 x3) x1) (embedG x0 x2 x3) x4 x5 x6
      = convR (meanR (embedG x0 x2 x3) x4 (srcI x1) (dstI x1) (cntB x1)) (embedG x0 x2 x3) x5 x6 := by
    rw [convG_eq_convR, relProd_agg _ _ _ e0 h4]
  have e1 : ∀ i, IsReal (convR (meanR (embedG x0 x2 x3) x4 (srcI x1) (dstI x1) (cntB x1)) (embedG x0 x2 x3) x5 x6 i) :=
    convR_real _ _ _ _ (meanR_real _ _ _ e0 h4) e0 h5 h6
  rw [k1, headG_eq_headR, relProd_agg _ _ _ e1 h7]

end Cert.Bridge

end
-- ==== Proof.FiniteInputs.lean ====
/-
  From the precondition "every float input is finite" to: every entry of every float argument is a real number.

  The precondition computes, for each of the eleven float arguments x, the one-bit word "|x| < +∞ at every entry"
  (a comparison of |x| against the broadcast pattern 0x7F800000, then a reduction by `and` over all axes from the
  initial word 1), and returns the `and` of the eleven words. At the ideal instance a float is an extended real,
  the pattern 0x7F800000 denotes +∞ (the order's top), and |x| is max x (-x). So the claim "the result is 1" says
  max (x i) (-(x i)) < ⊤ at every entry of every argument: that rules out x i = ⊤ (max ⊤ _ = ⊤) and x i = ⊥
  (-⊥ = ⊤), and an extended real that is neither is the coercion of a real number.
-/
import proofs.«150826_j5841155522636_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx

/-- The rank-0 shape has one index. -/
private instance subsingleton_idx0 : Subsingleton (Cert.Pre_finite_inputs.S_).Idx :=
  ⟨fun a b => funext fun d => d.elim0⟩

/-- The pattern 0x7F800000 denotes +∞. -/
private theorem ofBits_inf : Ideal.ofBits .f32 0x7F800000#32 = (⊤ : EReal) := by
  simp [Ideal.ofBits, Ideal.ieee]

/-- A one-bit word made from a boolean is 1 exactly when the boolean is true. -/
private theorem ofBool_eq_one (b : Bool) : BitVec.ofBool b = 1#1 ↔ b = true := by cases b <;> decide

/-- An extended real whose absolute value max x (-x) is below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- If the word "|x| < +∞ at every entry" (compare, then reduce by `and` over all axes) is 1, every entry of x is real. -/
private theorem entries_real {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1) (i : s.Idx) : ∃ r : ℝ, x i = (r : EReal) := by
  have hw := Host.reduce_andi_all _ _ hr hu ix0 e i
  change Ideal.cmp .olt (max (x i) (-(x i))) (Ideal.ofBits .f32 0x7F800000#32) = 1#1 at hw
  rw [ofBits_inf] at hw
  unfold Ideal.cmp at hw
  rw [ofBool_eq_one] at hw
  exact real_of_abs_lt_top (x i) (by simpa using hw)

/-- The `and` of two rank-0 one-bit arrays is 1 at the one index exactly when both are. -/
private theorem andi_ix0 (X Y : IVec Cert.Pre_finite_inputs.S_ 1) (h : andi X Y ix0 = 1#1) : X ix0 = 1#1 ∧ Y ix0 = 1#1 :=
  IntOp.andi_eq_one.1 h

/-- Under the precondition every entry of every float argument is a real number. -/
theorem all_real [Cert.Pre_finite_inputs.Facts]
    (a0 : FVec Ideal Cert.Pre_finite_inputs.S100000x32 .f32) (a1 : IVec Cert.Pre_finite_inputs.S2x1600000 32)
    (a2 : FVec Ideal Cert.Pre_finite_inputs.S32x128 .f32) (a3 : FVec Ideal Cert.Pre_finite_inputs.S128 .f32)
    (a4 : FVec Ideal Cert.Pre_finite_inputs.S128x128 .f32) (a5 : FVec Ideal Cert.Pre_finite_inputs.S128x128 .f32)
    (a6 : FVec Ideal Cert.Pre_finite_inputs.S128 .f32) (a7 : FVec Ideal Cert.Pre_finite_inputs.S128x128 .f32)
    (a8 : FVec Ideal Cert.Pre_finite_inputs.S128x128 .f32) (a9 : FVec Ideal Cert.Pre_finite_inputs.S128 .f32)
    (a10 : FVec Ideal Cert.Pre_finite_inputs.S128x16 .f32) (a11 : FVec Ideal Cert.Pre_finite_inputs.S16 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, ∃ r : ℝ, a11 i = (r : EReal)) := by
  -- The result has one index; read the claim there and put the eleven reductions in view.
  have e := congrFun h ix0
  dsimp only [Cert.Pre_finite_inputs.fn, Cert.Pre_finite_inputs.fn_part1, Cert.Pre_finite_inputs.fn_part2,
    Cert.Pre_finite_inputs.fn_part3] at e
  -- The result is the `and` of the eleven words, associated to the left: peel them off from the last.
  obtain ⟨e, e11⟩ := andi_ix0 _ _ e
  obtain ⟨e, e10⟩ := andi_ix0 _ _ e
  obtain ⟨e, e9⟩ := andi_ix0 _ _ e
  obtain ⟨e, e8⟩ := andi_ix0 _ _ e
  obtain ⟨e, e7⟩ := andi_ix0 _ _ e
  obtain ⟨e, e6⟩ := andi_ix0 _ _ e
  obtain ⟨e, e5⟩ := andi_ix0 _ _ e
  obtain ⟨e, e4⟩ := andi_ix0 _ _ e
  obtain ⟨e, e3⟩ := andi_ix0 _ _ e
  obtain ⟨e0, e2⟩ := andi_ix0 _ _ e
  exact ⟨entries_real a0 _ _ _ e0, entries_real a2 _ _ _ e2, entries_real a3 _ _ _ e3, entries_real a4 _ _ _ e4,
    entries_real a5 _ _ _ e5, entries_real a6 _ _ _ e6, entries_real a7 _ _ _ e7, entries_real a8 _ _ _ e8,
    entries_real a9 _ _ _ e9, entries_real a10 _ _ _ e10, entries_real a11 _ _ _ e11⟩

end Cert.FiniteInputs

end
-- ==== Proof.lean ====
/-
  The certificate: a three-region graph network kernel against its jnp reference.

  The kernel embeds the node features (x·W + b), and twice aggregates the neighbours' features along the edges and applies
  a convolution stage max(0, A·W_rel + H·W_root + b); the second stage is fused with the output layer. It takes the mean over
  a node's incoming edges BEFORE the relation weights (add the neighbours' rows, scale by the reciprocal in-degree, then
  multiply), where the reference multiplies every edge's row by the weights, adds, and divides. At the extended reals a
  change of float format is the identity, so the narrow copies the kernel gathers from hold the wide values, and the two
  orders agree entry by entry once every entry is a real number — which the precondition (every float input finite) gives,
  and which embedding, aggregation and convolution preserve.

  The frames of the two kernel programs are the generated frame certificates; the reference's frame is its generated run
  with the result dropped; the idealization rewrote nothing, so it is preserved trivially. For the value claim the
  kernel's run is stated with its whole final valuation (KernelRun), the result buffer is read back through the three
  regions and the host code between them as the stage functions composed (Region0-2, KernelChain), the reference's run is
  the generated one read as the same stages over its own mean (RefValue), and Bridge joins the two.
-/
import proofs.«150826_j5841155522636_2_alg».proof.Defs
import proofs.«150826_j5841155522636_2_alg».proof.Proof.Gen.Kernel
import proofs.«150826_j5841155522636_2_alg».proof.Proof.Gen.Kernel.Skeleton
import proofs.«150826_j5841155522636_2_alg».proof.Proof.Gen.Kernel.Launch
import proofs.«150826_j5841155522636_2_alg».proof.Proof.Gen.Kernel.Points
import proofs.«150826_j5841155522636_2_alg».proof.Proof.Gen.Kernel.Frame
import proofs.«150826_j5841155522636_2_alg».proof.Proof.Gen.KernelIdeal
import proofs.«150826_j5841155522636_2_alg».proof.Proof.Gen.KernelIdeal.Skeleton
import proofs.«150826_j5841155522636_2_alg».proof.Proof.Gen.KernelIdeal.Launch
import proofs.«150826_j5841155522636_2_alg».proof.Proof.Gen.KernelIdeal.Points
import proofs.«150826_j5841155522636_2_alg».proof.Proof.Gen.KernelIdeal.Frame
import proofs.«150826_j5841155522636_2_alg».proof.Proof.Gen.ReferenceIdeal
import proofs.«150826_j5841155522636_2_alg».proof.Proof.Gen.Pre_finite_inputs
import proofs.«150826_j5841155522636_2_alg».proof.Proof.Gen.ReferenceIdeal.Run
import proofs.«150826_j5841155522636_2_alg».proof.Proof.Gen.ReferenceIdeal.Read
import proofs.«150826_j5841155522636_2_alg».proof.Proof.KernelRun
import proofs.«150826_j5841155522636_2_alg».proof.Proof.KernelChain
import proofs.«150826_j5841155522636_2_alg».proof.Proof.RefValue
import proofs.«150826_j5841155522636_2_alg».proof.Proof.Bridge
import proofs.«150826_j5841155522636_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's run: the result buffer ends at the stages composed, the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v41) = Cert.KernelIdeal.Chain.out m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run _ _ _).mono (fun r h c =>
    ⟨(h c _ (Cert.KernelIdeal.Gen.mem_uc Cert.KernelIdeal.main_v41 (by decide))).trans (Cert.KernelIdeal.Chain.W6_out m ρ c),
     (h c _ (Cert.KernelIdeal.Gen.mem_uc Cert.KernelIdeal.main_arg0 (by decide))).trans (Cert.KernelIdeal.Gen.W6_main_arg0 m ρ c),
     (h c _ (Cert.KernelIdeal.Gen.mem_uc Cert.KernelIdeal.main_arg1 (by decide))).trans (Cert.KernelIdeal.Gen.W6_main_arg1 m ρ c),
     (h c _ (Cert.KernelIdeal.Gen.mem_uc Cert.KernelIdeal.main_arg2 (by decide))).trans (Cert.KernelIdeal.Gen.W6_main_arg2 m ρ c),
     (h c _ (Cert.KernelIdeal.Gen.mem_uc Cert.KernelIdeal.main_arg3 (by decide))).trans (Cert.KernelIdeal.Gen.W6_main_arg3 m ρ c),
     (h c _ (Cert.KernelIdeal.Gen.mem_uc Cert.KernelIdeal.main_arg4 (by decide))).trans (Cert.KernelIdeal.Gen.W6_main_arg4 m ρ c),
     (h c _ (Cert.KernelIdeal.Gen.mem_uc Cert.KernelIdeal.main_arg5 (by decide))).trans (Cert.KernelIdeal.Gen.W6_main_arg5 m ρ c),
     (h c _ (Cert.KernelIdeal.Gen.mem_uc Cert.KernelIdeal.main_arg6 (by decide))).trans (Cert.KernelIdeal.Gen.W6_main_arg6 m ρ c),
     (h c _ (Cert.KernelIdeal.Gen.mem_uc Cert.KernelIdeal.main_arg7 (by decide))).trans (Cert.KernelIdeal.Gen.W6_main_arg7 m ρ c),
     (h c _ (Cert.KernelIdeal.Gen.mem_uc Cert.KernelIdeal.main_arg8 (by decide))).trans (Cert.KernelIdeal.Gen.W6_main_arg8 m ρ c),
     (h c _ (Cert.KernelIdeal.Gen.mem_uc Cert.KernelIdeal.main_arg9 (by decide))).trans (Cert.KernelIdeal.Gen.W6_main_arg9 m ρ c),
     (h c _ (Cert.KernelIdeal.Gen.mem_uc Cert.KernelIdeal.main_arg10 (by decide))).trans (Cert.KernelIdeal.Gen.W6_main_arg10 m ρ c),
     (h c _ (Cert.KernelIdeal.Gen.mem_uc Cert.KernelIdeal.main_arg11 (by decide))).trans (Cert.KernelIdeal.Gen.W6_main_arg11 m ρ c)⟩)
    (Cert.KernelIdeal.RunValue.run_all m ρ)

/-- The two idealized programs end with equal results: the kernel's composition of its stages is the reference's. -/
theorem algebraic : Cert.algebraic_KernelIdeal_ReferenceIdeal := by
  intro m ρ m' ρ' hpre hagree
  refine ⟨fun c => Cert.KernelIdeal.Chain.out m c, kernel_run m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4, a5, a6, a7, a8, a9, a10, a11⟩ := hagree c
  obtain ⟨h0, h2, h3, h4, h5, h6, h7, -⟩ := Cert.FiniteInputs.all_real _ _ _ _ _ _ _ _ _ _ _ _ (hpre c)
  rw [Cert.ReferenceIdeal.Read.val_main_v63_eq, Cert.ReferenceIdeal.RefValue.ref_value, a0, a1, a2, a3, a4, a5, a6, a7, a8, a9, a10, a11]
  exact (Cert.Bridge.out_eq _ _ _ _ _ _ _ _ _ _ _ _ h0 h2 h3 h4 h5 h6 h7).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
